-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x2048x64 : Shape := ⟨4, ![1, 16, 2048, 64]⟩
abbrev S_ : Shape := ⟨0, ![]⟩

class Facts : Prop where
  bcast_S_S1x16x2048x64 : S_.BroadcastsInDim S1x16x2048x64 (![] : Fin 0 → Fin S1x16x2048x64.rank)
  reducesTo_S1x16x2048x64_S_d0_1_2_3 : S1x16x2048x64.ReducesTo [0, 1, 2, 3] S_
  h_S_ : 0 < S_.numel

variable [Facts]

def fn {F : FTy → Type} [FloatOps F] (main_arg0 : FVec F S1x16x2048x64 .f32) (main_arg1 : FVec F S1x16x2048x64 .f32) (main_arg2 : FVec F S1x16x2048x64 .f32) : IVec S_ 1 :=
  let main_v0 : FVec F S1x16x2048x64 .f32 := Host.absf main_arg0
  let main_cst : FVec F S_ .f32 := constant S_ .f32 0x7F800000#32
  let main_v1 : FVec F S1x16x2048x64 .f32 := broadcastInDim S1x16x2048x64 ![] bcast_S_S1x16x2048x64 main_cst
  let main_v2 : IVec S1x16x2048x64 1 := cmpf .olt main_v0 main_v1
  let main_c : IVec S_ 1 := constantI S_ 1 1#1
  let main_v3 : IVec S_ 1 := (fun x v => Host.reduce IntOp.andi x v reducesTo_S1x16x2048x64_S_d0_1_2_3 h_S_) main_v2 main_c
  let main_v4 : FVec F S1x16x2048x64 .f32 := Host.absf main_arg1
  let main_cst_0 : FVec F S_ .f32 := constant S_ .f32 0x7F800000#32
  let main_v5 : FVec F S1x16x2048x64 .f32 := broadcastInDim S1x16x2048x64 ![] bcast_S_S1x16x2048x64 main_cst_0
  let main_v6 : IVec S1x16x2048x64 1 := cmpf .olt main_v4 main_v5
  let main_c_1 : IVec S_ 1 := constantI S_ 1 1#1
  let main_v7 : IVec S_ 1 := (fun x v => Host.reduce IntOp.andi x v reducesTo_S1x16x2048x64_S_d0_1_2_3 h_S_) main_v6 main_c_1
  let main_v8 : IVec S_ 1 := andi main_v3 main_v7
  let main_v9 : FVec F S1x16x2048x64 .f32 := Host.absf main_arg2
  let main_cst_2 : FVec F S_ .f32 := constant S_ .f32 0x7F800000#32
  let main_v10 : FVec F S1x16x2048x64 .f32 := broadcastInDim S1x16x2048x64 ![] bcast_S_S1x16x2048x64 main_cst_2
  let main_v11 : IVec S1x16x2048x64 1 := cmpf .olt main_v9 main_v10
  let main_c_3 : IVec S_ 1 := constantI S_ 1 1#1
  let main_v12 : IVec S_ 1 := (fun x v => Host.reduce IntOp.andi x v reducesTo_S1x16x2048x64_S_d0_1_2_3 h_S_) main_v11 main_c_3
  let main_v13 : IVec S_ 1 := andi main_v8 main_v12
  main_v13
-- ==== Kernel.lean ====
abbrev S1x16x2048x64 : Shape := ⟨4, ![1, 16, 2048, 64]⟩
abbrev S1x16x2048x2048 : Shape := ⟨4, ![1, 16, 2048, 2048]⟩
abbrev S1x1x2048x64 : Shape := ⟨4, ![1, 1, 2048, 64]⟩
abbrev S1x1x2048x2048 : Shape := ⟨4, ![1, 1, 2048, 2048]⟩
abbrev S2048x64 : Shape := ⟨2, ![2048, 64]⟩
abbrev S2048x1 : Shape := ⟨2, ![2048, 1]⟩
abbrev S1x1x512x64 : Shape := ⟨4, ![1, 1, 512, 64]⟩
abbrev S512x64 : Shape := ⟨2, ![512, 64]⟩
abbrev S2048x512 : Shape := ⟨2, ![2048, 512]⟩
abbrev S2048 : Shape := ⟨1, ![2048]⟩
abbrev S1x1x2048x512 : Shape := ⟨4, ![1, 1, 2048, 512]⟩

abbrev nBuf : Space → Nat
  | .hbm => 5
  | .vmem => 10
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S1x16x2048x64, .f32⟩
  | .hbm, ⟨4, _⟩ => ⟨S1x16x2048x2048, .f32⟩
  | .local _ .vmem, ⟨0, _⟩ => ⟨S1x1x2048x64, .f32⟩
  | .local _ .vmem, ⟨1, _⟩ => ⟨S1x1x2048x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048x64, .f32⟩
  | .local _ .vmem, ⟨7, _⟩ => ⟨S1x1x2048x64, .f32⟩
  | .local _ .vmem, ⟨8, _⟩ => ⟨S1x1x2048x2048, .f32⟩
  | .local _ .vmem, ⟨9, _⟩ => ⟨S1x1x2048x2048, .f32⟩
  | _, _ => ⟨S1x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x2048x64_S1x1x512x64_0_0_0_0 : ∀ a, (![0, 0, 0, 0] : Fin 4 → Nat) a + S1x1x512x64.size a ≤ S1x1x2048x64.size a
  h_S1x1x512x64 : 0 < S1x1x512x64.numel
  shapeCasts_S1x1x512x64_S512x64 : S1x1x512x64.ShapeCasts S512x64
  reduces_S2048x512_S2048 : S2048x512.Reduces [1] S2048
  shapeCasts_S2048_S2048x1 : S2048.ShapeCasts S2048x1
  broadcasts_S2048x1_S2048x512 : S2048x1.Broadcasts S2048x512
  inb_S1x1x2048x64_S1x1x512x64_0_0_512_0 : ∀ a, (![0, 0, 512, 0] : Fin 4 → Nat) a + S1x1x512x64.size a ≤ S1x1x2048x64.size a
  inb_S1x1x2048x64_S1x1x512x64_0_0_1024_0 : ∀ a, (![0, 0, 1024, 0] : Fin 4 → Nat) a + S1x1x512x64.size a ≤ S1x1x2048x64.size a
  inb_S1x1x2048x64_S1x1x512x64_0_0_1536_0 : ∀ a, (![0, 0, 1536, 0] : Fin 4 → Nat) a + S1x1x512x64.size a ≤ S1x1x2048x64.size a
  inb_S1x1x2048x2048_S1x1x2048x512_0_0_0_0 : ∀ a, (![0, 0, 0, 0] : Fin 4 → Nat) a + S1x1x2048x512.size a ≤ S1x1x2048x2048.size a
  h_S1x1x2048x512 : 0 < S1x1x2048x512.numel
  shapeCasts_S1x1x2048x512_S2048x512 : S1x1x2048x512.ShapeCasts S2048x512
  shapeCasts_S2048x512_S1x1x2048x512 : S2048x512.ShapeCasts S1x1x2048x512
  inb_S1x1x2048x2048_S1x1x2048x512_0_0_0_512 : ∀ a, (![0, 0, 0, 512] : Fin 4 → Nat) a + S1x1x2048x512.size a ≤ S1x1x2048x2048.size a
  inb_S1x1x2048x2048_S1x1x2048x512_0_0_0_1024 : ∀ a, (![0, 0, 0, 1024] : Fin 4 → Nat) a + S1x1x2048x512.size a ≤ S1x1x2048x2048.size a
  inb_S1x1x2048x2048_S1x1x2048x512_0_0_0_1536 : ∀ a, (![0, 0, 0, 1536] : Fin 4 → Nat) a + S1x1x2048x512.size a ≤ S1x1x2048x2048.size a
  shapeCasts_S2048x64_S1x1x2048x64 : S2048x64.ShapeCasts S1x1x2048x64
  dot_S2048x64_S512x64_S2048x512_1_1_0_0_n_n_wf : DotDims.WF S2048x64 S512x64 S2048x512 [1] [1] [0] [0] [] []
  dot_S2048x512_S512x64_S2048x64_1_0_0_1_n_n_wf : DotDims.WF S2048x512 S512x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048x64.size a ≤ S1x16x2048x64.size a
  hwx0_0 : ∀ i : grid0.Coords, EltTy.bits .f32 = 32 ∨ (Rect.block (s := S1x16x2048x64) S1x1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S1x16x2048x64.size a
  hwx0_1 : ∀ i : grid0.Coords, EltTy.bits .f32 = 32 ∨ (Rect.block (s := S1x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S1x16x2048x64.size a
  hwx0_2 : ∀ i : grid0.Coords, EltTy.bits .f32 = 32 ∨ (Rect.block (s := S1x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048x64.size a ≤ S1x16x2048x64.size a
  hwx0_3 : ∀ i : grid0.Coords, EltTy.bits .f32 = 32 ∨ (Rect.block (s := S1x16x2048x64) S1x1x2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048x2048.size a ≤ S1x16x2048x2048.size a
  hwx0_4 : ∀ i : grid0.Coords, EltTy.bits .f32 = 32 ∨ (Rect.block (s := S1x16x2048x2048) S1x1x2048x2048.size (cc0_transform_4 i) (hinb0_4 i)).WholeWords (EltTy.packing .f32)

variable [Facts₀]

def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win0_0 : Pipeline.Window sig grid0 :=
  Pipeline.Window.ofSpec (Memref.whole main_arg0) S1x1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x2048x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x16x2048x64 : Shape := ⟨4, ![1, 16, 2048, 64]⟩
abbrev S1x16x2048x2048 : Shape := ⟨4, ![1, 16, 2048, 2048]⟩
abbrev S_ : Shape := ⟨0, ![]⟩
abbrev S1x16x2048 : Shape := ⟨3, ![1, 16, 2048]⟩
abbrev S1x16x2048x1 : Shape := ⟨4, ![1, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S1x16x2048x2048, .f32⟩
  | .hbm, ⟨4, _⟩ => ⟨S_, .f32⟩
  | .hbm, ⟨5, _⟩ => ⟨S1x16x2048x2048, .f32⟩
  | .hbm, ⟨6, _⟩ => ⟨S1x16x2048x2048, .f32⟩
  | .hbm, ⟨7, _⟩ => ⟨S_, .f32⟩
  | .hbm, ⟨8, _⟩ => ⟨S1x16x2048, .f32⟩
  | .hbm, ⟨9, _⟩ => ⟨S_, .f32⟩
  | .hbm, ⟨10, _⟩ => ⟨S1x16x2048, .f32⟩
  | .hbm, ⟨11, _⟩ => ⟨S1x16x2048, .f32⟩
  | .hbm, ⟨12, _⟩ => ⟨S1x16x2048x1, .f32⟩
  | .hbm, ⟨13, _⟩ => ⟨S1x16x2048x2048, .f32⟩
  | .hbm, ⟨14, _⟩ => ⟨S1x16x2048x2048, .f32⟩
  | .hbm, ⟨15, _⟩ => ⟨S1x16x2048x2048, .f32⟩
  | .hbm, ⟨16, _⟩ => ⟨S_, .f32⟩
  | .hbm, ⟨17, _⟩ => ⟨S1x16x2048, .f32⟩
  | .hbm, ⟨18, _⟩ => ⟨S1x16x2048x1, .f32⟩
  | .hbm, ⟨19, _⟩ => ⟨S1x16x2048x2048, .f32⟩
  | .hbm, ⟨20, _⟩ => ⟨S1x16x2048x2048, .f32⟩
  | .hbm, ⟨21, _⟩ => ⟨S1x16x2048x64, .f32⟩
  | _, _ => ⟨S1x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S1x16x2048x2048 : S_.BroadcastsInDim S1x16x2048x2048 (![] : Fin 0 → Fin S1x16x2048x2048.rank)
  reducesTo_S1x16x2048x2048_S1x16x2048_d3 : S1x16x2048x2048.ReducesTo [3] S1x16x2048
  h_S_ : 0 < S_.numel
  bcast_S_S1x16x2048 : S_.BroadcastsInDim S1x16x2048 (![] : Fin 0 → Fin S1x16x2048.rank)
  bcast_S1x16x2048_S1x16x2048x1_0_1_2 : S1x16x2048.BroadcastsInDim S1x16x2048x1 (![0, 1, 2] : Fin 3 → Fin S1x16x2048x1.rank)
  bcast_S1x16x2048x1_S1x16x2048x2048_0_1_2_3 : S1x16x2048x1.BroadcastsInDim S1x16x2048x2048 (![0, 1, 2, 3] : Fin 4 → Fin S1x16x2048x2048.rank)
  dot_S1x16x2048x64_S1x16x2048x64_S1x16x2048x2048_3_3_2_2_01_01_wf : DotDims.WF S1x16x2048x64 S1x16x2048x64 S1x16x2048x2048 [3] [3] [2] [2] [0, 1] [0, 1]
  dot_S1x16x2048x2048_S1x16x2048x64_S1x16x2048x64_3_2_2_3_01_01_wf : DotDims.WF S1x16x2048x2048 S1x16x2048x64 S1x16x2048x64 [3] [2] [2] [3] [0, 1] [0, 1]

variable [Facts₀]

def dot_S1x16x2048x64_S1x16x2048x64_S1x16x2048x2048_3_3_2_2_01_01 : DotDims S1x16x2048x64 S1x16x2048x64 S1x16x2048x2048 where
  lhsContracting := [3]
  rhsContracting := [3]
  lhsNonContracting := [2]
  rhsNonContracting := [2]
  lhsBatch := [0, 1]
  rhsBatch := [0, 1]
  wf := dot_S1x16x2048x64_S1x16x2048x64_S1x16x2048x2048_3_3_2_2_01_01_wf
def dot_S1x16x2048x2048_S1x16x2048x64_S1x16x2048x64_3_2_2_3_01_01 : DotDims S1x16x2048x2048 S1x16x2048x64 S1x16x2048x64 where
  lhsContracting := [3]
  rhsContracting := [2]
  lhsNonContracting := [2]
  rhsNonContracting := [3]
  lhsBatch := [0, 1]
  rhsBatch := [0, 1]
  wf := dot_S1x16x2048x2048_S1x16x2048x64_S1x16x2048x64_3_2_2_3_01_01_wf

class Facts : Prop extends Facts₀ where

variable [Facts]
-- ==== Proof.LibDotNT.lean ====
/-
  A matrix product against a transposed right operand, read at an index, on the extended reals.

  For dimension numbers that contract the left operand's second axis against the right operand's
  SECOND axis, with no batch axes (an `M×K` matrix times the transpose of an `N×K` matrix), entry
  `(p, c)` of the product is `Σ_{q < K} l[p, q] · r[c, q]`. The library states a product as a sum over
  the contraction shape's multi-indices; here that sum is re-indexed by the one contracted coordinate,
  once, for every record of this form and every extent.
-/
import Idealize.ShloMosaic.PureOps.Ideal.Laws
import Idealize.ShloMosaic.Lib.ValueIdx

noncomputable section

open scoped BigOperators

namespace Cert.DotNT

open Idealize.ShloMosaic Idealize.ShloMosaic.ValueIdx

variable {M K N : Nat} (d : DotDims ⟨2, ![M, K]⟩ ⟨2, ![N, K]⟩ ⟨2, ![M, N]⟩)

/-- The dimension numbers of a product with a transposed right operand: contract left axis 1 with right
    axis 1, keep left axis 0 and right axis 0 in that order, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

/-- The contraction shape has one axis. -/
theorem contr_rank (h : IsNT d) : d.contr.rank = 1 := by rw [d.rank_contr, h.lc]; rfl

/-- That axis has the shared extent `K`. -/
theorem contr_size (h : IsNT d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsNT d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand's ROW is the result's column. -/
theorem rhs_row (h : IsNT d) (j : (⟨2, ![M, N]⟩ : Shape).Idx) (k : d.contr.Idx) : (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 (j 1) q) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 (j 1) q := funext fun a => Fin.ext (by
    match a with
    | ⟨0, _⟩ => exact rhs_row h j _
    | ⟨1, _⟩ => exact (d.rhsIdx_val_of_single h.rc j _).trans hq)
  rw [el, er]
  rfl

/-- A `tpu.matmul` into a zero accumulator, at entry `(p, c)`. -/
theorem matmul_zero_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ q : Fin K, l (ix2 p q) * r (ix2 c q) :=
  (Ideal.matmul_constant_zero_apply d prec l r (ix2 p c)).trans (sum_contr h l r (ix2 p c))

/-- The host's `dot_general` of the same form, at entry `(p, c)`. -/
theorem dotGeneral_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    Host.dotGeneral d prec l r (ix2 p c) = ∑ q : Fin K, l (ix2 p q) * r (ix2 c q) :=
  (Ideal.dotGeneral_apply d prec .single l r (ix2 p c)).trans (sum_contr h l r (ix2 p c))

end Cert.DotNT

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibLogShift.lean ====
/-
  The shift law behind a log-domain normalisation, on the extended reals.

  Fix a finite family `L n` of extended reals, none of them `+∞` (think `L n = log a n` of real numbers `a n`:
  a real number's logarithm is a real number or `-∞`). Write `M` for the family's maximum (the fold of `max`
  from `-∞`), `e n = exp (L n - M)` for the shifted exponentials, `ls = log (∑ n, e n)`, and
  `lw n = (L n - M) - ls` for the normalised logarithms. Two programs may carry the normaliser differently:
  one keeps `e n` and the offset `M - (ls + M)`; the other recomputes the maximum `w` of the `lw n` and
  uses `exp (lw n - w)` and the offset `w`. The law says these are the same numbers:

      w = M - (ls + M)        and        exp (lw n - w) = e n   for every n.

  There are two cases. If `M` is a real number `m`, some `L n` equals `m`, every shifted term `L n - M` is
  `≤ 0` (a real number or `-∞`) and one of them is `0`; so `∑ e` is a real number `≥ 1`, `ls` is a real number,
  the maximum of the `lw n` is `0 - ls`, and everything is arithmetic of real numbers (with `-∞` absorbing).
  If `M = -∞`, every `L n` is `-∞`; with the conventions `-∞ - (-∞) = -∞`, `exp (-∞) = 0`, `log 0 = -∞` both
  sides are `-∞` and `0`. (`M = +∞` is excluded by the hypothesis, and is where the law would fail.)
-/
import Idealize.ShloMosaic.PureOps.Ideal
import Mathlib.Data.Finset.Fold

noncomputable section

namespace Cert.LogShift

open Idealize.ShloMosaic

variable {ι : Type} [Fintype ι]

/-- The maximum of a finite family as both programs compute it: the fold of `max` from `-∞`. -/
def cmax (L : ι → EReal) : EReal := (Finset.univ : Finset ι).fold max ⊥ L

theorem le_cmax (L : ι → EReal) (n : ι) : L n ≤ cmax L :=
  (Finset.le_fold_max (L n)).mpr (Or.inr ⟨n, Finset.mem_univ n, le_rfl⟩)

theorem cmax_le {L : ι → EReal} {b : EReal} (h : ∀ n, L n ≤ b) : cmax L ≤ b :=
  (Finset.fold_max_le b).mpr ⟨bot_le, fun n _ => h n⟩

/-- A maximum that is not `-∞` is attained. -/
theorem exists_eq_cmax {L : ι → EReal} (h : cmax L ≠ ⊥) : ∃ n, L n = cmax L := by
  rcases (Finset.le_fold_max (cmax L)).mp (le_refl (cmax L)) with h0 | ⟨n, -, hn⟩
  · exact absurd (le_bot_iff.mp h0) h
  · exact ⟨n, le_antisymm (le_cmax L n) hn⟩

theorem cmax_eq_bot {L : ι → EReal} (h : ∀ n, L n = ⊥) : cmax L = ⊥ :=
  le_bot_iff.mp (cmax_le fun n => (h n).le)

theorem eq_bot_of_cmax_eq_bot {L : ι → EReal} (h : cmax L = ⊥) (n : ι) : L n = ⊥ :=
  le_bot_iff.mp (h ▸ le_cmax L n)

theorem cmax_ne_top {L : ι → EReal} (h : ∀ n, L n ≠ ⊤) : cmax L ≠ ⊤ := by
  intro e
  rcases (Finset.le_fold_max ⊤).mp (le_of_eq e.symm) with h0 | ⟨n, -, hn⟩
  · exact absurd (top_le_iff.mp h0) (by decide)
  · exact h n (top_le_iff.mp hn)

/-- A fold of `max` that starts from `-∞` is the family's maximum. -/
theorem fold_eq_cmax {N : ℕ} (f g : Fin N → EReal) (b : EReal) (hb : b = ⊥) (h : ∀ n, f n = g n) :
    (Finset.univ : Finset (Fin N)).fold max b f = cmax g := by
  subst hb
  exact congrArg (fun u => (Finset.univ : Finset (Fin N)).fold max ⊥ u) (funext h)

/-- The f32 word `0xFF800000` denotes `-∞`. -/
theorem neg_inf : Ideal.ofBits .f32 0xFF800000#32 = (⊥ : EReal) := by
  simp [Ideal.ofBits, Ideal.ieee]

/-- A finite sum of real numbers, taken in the extended reals, is the real sum. -/
theorem coe_sum (s : Finset ι) (f : ι → ℝ) : (∑ n ∈ s, (f n : EReal)) = ((∑ n ∈ s, f n : ℝ) : EReal) := by
  classical
  induction s using Finset.induction_on with
  | empty => simp
  | insert a s ha ih => rw [Finset.sum_insert ha, Finset.sum_insert ha, ih, EReal.coe_add]

/-- The logarithm of a number other than `+∞` is not `+∞`. -/
theorem log_ne_top {a : EReal} (h : a ≠ ⊤) : Ideal.log a ≠ ⊤ := by
  induction a using EReal.rec with
  | bot => simp
  | top => exact absurd rfl h
  | coe r =>
    rw [Ideal.log_coe]
    split
    · decide
    · exact EReal.coe_ne_top _

/-- THE SHIFT LAW (the file's header). -/
theorem shift_law (L : ι → EReal) (hL : ∀ n, L n ≠ ⊤) :
    cmax (fun n => L n - cmax L - Ideal.log (∑ n, Ideal.exp (L n - cmax L)))
        = cmax L - (Ideal.log (∑ n, Ideal.exp (L n - cmax L)) + cmax L)
      ∧ ∀ n, Ideal.exp (L n - cmax L - Ideal.log (∑ n, Ideal.exp (L n - cmax L))
            - cmax (fun n => L n - cmax L - Ideal.log (∑ n, Ideal.exp (L n - cmax L))))
          = Ideal.exp (L n - cmax L) := by
  have hM := cmax_ne_top hL
  generalize hMd : cmax L = M at hM ⊢
  induction M using EReal.rec with
  | top => exact absurd rfl hM
  | bot =>
    -- every term is -∞
    have hb : ∀ n, L n = ⊥ := eq_bot_of_cmax_eq_bot hMd
    have hsh : ∀ n, L n - ⊥ = ⊥ := fun n => by rw [hb n]; rfl
    simp only [hsh, Ideal.exp_bot, Finset.sum_const_zero]
    have hl0 : Ideal.log 0 = ⊥ := by
      rw [show (0 : EReal) = ((0 : ℝ) : EReal) from rfl, Ideal.log_coe, if_pos le_rfl]
    rw [hl0]
    have hbb : (⊥ : EReal) - ⊥ = ⊥ := rfl
    have hc : cmax (fun _ : ι => (⊥ : EReal) - ⊥) = ⊥ := cmax_eq_bot fun _ => hbb
    rw [hc]
    refine ⟨?_, fun n => ?_⟩
    · simp [hbb]
    · rw [hbb, hbb, Ideal.exp_bot]
  | coe m =>
    -- the maximum is a real number m, attained at some n₀
    obtain ⟨n₀, hn₀⟩ : ∃ n, L n = (m : EReal) := by
      have := exists_eq_cmax (L := L) (by rw [hMd]; exact EReal.coe_ne_bot m)
      rwa [hMd] at this
    have hle : ∀ n, L n ≤ (m : EReal) := fun n => hMd ▸ le_cmax L n
    -- each shifted term is -∞ or a real number ≤ 0; its exponential is a real number in [0, 1]
    have hsh : ∀ n, L n - (m : EReal) = ⊥ ∨ ∃ s : ℝ, s ≤ 0 ∧ L n - (m : EReal) = (s : EReal) := by
      intro n
      have h1 := hL n; have h2 := hle n
      induction hLn : L n using EReal.rec with
      | bot => exact Or.inl rfl
      | top => exact absurd hLn h1
      | coe l =>
        rw [hLn] at h2
        exact Or.inr ⟨l - m, by have := EReal.coe_le_coe_iff.mp h2; linarith, (EReal.coe_sub l m).symm⟩
    have hex : ∀ n, ∃ r : ℝ, 0 ≤ r ∧ Ideal.exp (L n - (m : EReal)) = (r : EReal) := by
      intro n
      rcases hsh n with h | ⟨s, -, h⟩
      · exact ⟨0, le_rfl, by rw [h, Ideal.exp_bot]; rfl⟩
      · exact ⟨Real.exp s, (Real.exp_pos s).le, by rw [h, Ideal.exp_coe]⟩
    choose er her0 her using hex
    have hsum : (∑ n, Ideal.exp (L n - (m : EReal))) = ((∑ n, er n : ℝ) : EReal) := by
      rw [← coe_sum]; exact Finset.sum_congr rfl fun n _ => her n
    have her1 : er n₀ = 1 := by
      have := her n₀
      rw [hn₀, ← EReal.coe_sub, sub_self, Ideal.exp_coe, Real.exp_zero] at this
      exact (EReal.coe_eq_coe_iff.mp this).symm
    have hSpos : 0 < ∑ n, er n :=
      lt_of_lt_of_le (by rw [her1]; exact one_pos)
        (Finset.single_le_sum (f := er) (fun n _ => her0 n) (Finset.mem_univ n₀))
    have hls : Ideal.log (∑ n, Ideal.exp (L n - (m : EReal))) = ((Real.log (∑ n, er n) : ℝ) : EReal) := by
      rw [hsum, Ideal.log_coe, if_neg (not_le.mpr hSpos)]
    rw [hls]
    generalize Real.log (∑ n, er n) = lam
    -- the recomputed maximum is 0 - ls
    have hw : cmax (fun n => L n - (m : EReal) - (lam : EReal)) = ((-lam : ℝ) : EReal) := by
      apply le_antisymm
      · apply cmax_le
        intro n
        rcases hsh n with h | ⟨s, hs, h⟩
        · rw [h]; exact bot_le
        · rw [h, ← EReal.coe_sub]; exact EReal.coe_le_coe_iff.mpr (by linarith)
      · have := le_cmax (fun n => L n - (m : EReal) - (lam : EReal)) n₀
        refine le_trans (le_of_eq ?_) this
        show _ = L n₀ - (m : EReal) - (lam : EReal)
        rw [hn₀, ← EReal.coe_sub, ← EReal.coe_sub]; congr 1; ring
    rw [hw]
    refine ⟨?_, fun n => ?_⟩
    · rw [← EReal.coe_add, ← EReal.coe_sub]; congr 1; ring
    · rcases hsh n with h | ⟨s, -, h⟩
      · rw [h]; rfl
      · rw [h, ← EReal.coe_sub, ← EReal.coe_sub]; congr 2; ring

/-! ## One entry of a log-domain matrix product, written both ways

  Entry `(b, k)` of the product depends on row `b` of the left matrix (`x n`) and column `k` of the right one
  (`a n`). With `L n = log (a n)`: both programs compute `log (∑ n, exp (x n - max x) · R n) + max x + w`; one takes
  `R n = exp (L n - M)` and `w = M - (ls + M)`, the other `R n = exp (lw n - max lw)` and `w = max lw`. -/

/-- `log ∑ exp` of the family shifted by its maximum. -/
def lse (L : ι → EReal) : EReal := Ideal.log (∑ n, Ideal.exp (L n - cmax L))

/-- The normalised logarithms `(L n - M) - ls`. -/
def lw (L : ι → EReal) (n : ι) : EReal := L n - cmax L - lse L

/-- The shift law over the two names above. -/
theorem shift_law' (L : ι → EReal) (hL : ∀ n, L n ≠ ⊤) :
    cmax (lw L) = cmax L - (lse L + cmax L) ∧ ∀ n, Ideal.exp (lw L n - cmax (lw L)) = Ideal.exp (L n - cmax L) :=
  shift_law L hL

/-- The entry with the shifted exponentials kept and the offset `M - (ls + M)`. -/
def entryK (x a : ι → EReal) : EReal :=
  Ideal.log (∑ n, Ideal.exp (x n - cmax x) * Ideal.exp (Ideal.log (a n) - cmax fun n => Ideal.log (a n)))
    + cmax x + (cmax (fun n => Ideal.log (a n)) - (lse (fun n => Ideal.log (a n)) + cmax fun n => Ideal.log (a n)))

/-- The entry with the maximum of the normalised logarithms recomputed. -/
def entryR (x a : ι → EReal) : EReal :=
  Ideal.log (∑ n, Ideal.exp (x n - cmax x) * Ideal.exp (lw (fun n => Ideal.log (a n)) n - cmax (lw fun n => Ideal.log (a n))))
    + cmax x + cmax (lw fun n => Ideal.log (a n))

/-- The two entries are one number when no `a n` is `+∞`. -/
theorem entryR_eq_entryK (x a : ι → EReal) (ha : ∀ n, a n ≠ ⊤) : entryR x a = entryK x a := by
  obtain ⟨h1, h2⟩ := shift_law' (fun n => Ideal.log (a n)) (fun n => log_ne_top (ha n))
  unfold entryR entryK
  rw [Finset.sum_congr rfl (fun n _ => congrArg (Ideal.exp (x n - cmax x) * ·) (h2 n)), h1]

end Cert.LogShift

end
-- ==== Proof.BodyOps.lean ====
/-
  The body's operations read at one entry, at the exact instance, over the body's literal shapes.

  q is the [2048, 64] query block; a key or value tile is a [1, 1, 512, 64] slab; scores and weights of one tile
  are [2048, 512]; the running quantities are [2048, 1] columns, read at (p, 0).

  * a slab with its unit axes dropped, or a block given them, is the same numbers at the same (row, lane);
  * a tile of scaled scores at (p, j) is (Σ_d q[p,d] · k[j,d]) · (1/8): the product contracts the lane axis of
    both operands, into a zero accumulator;
  * the tile's row maximum joined to the running maximum, and the tile's row sum of exp (score - new maximum);
  * a tile of weights exp (score - m) · (1/l);
  * a tile's contribution to the context, Σ_j w[p,j] · v[j,d].
-/
import proofs.«125590_j70695161692391_2_alg».proof.Proof.Gen.KernelIdeal.Skeleton
import Idealize.ShloMosaic.Lib.ValueIdx
import Idealize.ShloMosaic.Lib.Pipeline.Value
import Idealize.ShloMosaic.PureOps.Ideal.Laws
import proofs.«125590_j70695161692391_2_alg».proof.Proof.LibDotNT
import proofs.«125590_j70695161692391_2_alg».proof.Proof.LibPlainDot
import proofs.«125590_j70695161692391_2_alg».proof.Proof.LibAxisFold
import proofs.«125590_j70695161692391_2_alg».proof.Proof.LibColumn
import proofs.«125590_j70695161692391_2_alg».proof.Proof.LibLogShift

noncomputable section

open scoped BigOperators

namespace Cert.Attn.Body

open Idealize.ShloMosaic Idealize.ShloMosaic.ValueIdx Cert.KernelIdeal Cert.KernelIdeal.Gen Cert.LogShift

/-! ## Unit axes -/

theorem drop_tile (kk : FVec Ideal S1x1x512x64 .f32) (j : Fin 512) (d : Fin 64) :
    shapeCast S512x64 kk shapeCasts_S1x1x512x64_S512x64 (ix2 j d) = kk (ix4 (0 : Fin 1) (0 : Fin 1) j d) :=
  shapeCast_apply kk _ (ix2 j d) (ix4 (0 : Fin 1) (0 : Fin 1) j d) (by
    rw [Shape.rowMajor_val_two, Shape.rowMajor_val_four]
    show ((0 * 1 + 0) * 512 + j.val) * 64 + d.val = j.val * 64 + d.val
    omega)

theorem drop_block (x : FVec Ideal S1x1x2048x64 .f32) (p : Fin 2048) (d : Fin 64) :
    shapeCast S2048x64 x shapeCasts_S1x1x2048x64_S2048x64 (ix2 p d) = x (ix4 (0 : Fin 1) (0 : Fin 1) p d) :=
  shapeCast_apply x _ (ix2 p d) (ix4 (0 : Fin 1) (0 : Fin 1) p d) (by
    rw [Shape.rowMajor_val_two, Shape.rowMajor_val_four]
    show ((0 * 1 + 0) * 2048 + p.val) * 64 + d.val = p.val * 64 + d.val
    omega)

theorem add_units (v : FVec Ideal S2048x64 .f32) (p : Fin 2048) (d : Fin 64) :
    shapeCast S1x1x2048x64 v shapeCasts_S2048x64_S1x1x2048x64 (ix4 (0 : Fin 1) (0 : Fin 1) p d) = v (ix2 p d) :=
  shapeCast_apply v _ (ix4 (0 : Fin 1) (0 : Fin 1) p d) (ix2 p d) (by
    rw [Shape.rowMajor_val_two, Shape.rowMajor_val_four]
    show p.val * 64 + d.val = ((0 * 1 + 0) * 2048 + p.val) * 64 + d.val
    omega)

theorem add_units_w (v : FVec Ideal S2048x512 .f32) (p : Fin 2048) (j : Fin 512) :
    shapeCast S1x1x2048x512 v shapeCasts_S2048x512_S1x1x2048x512 (ix4 (0 : Fin 1) (0 : Fin 1) p j) = v (ix2 p j) :=
  shapeCast_apply v _ (ix4 (0 : Fin 1) (0 : Fin 1) p j) (ix2 p j) (by
    rw [Shape.rowMajor_val_two, Shape.rowMajor_val_four]
    show p.val * 512 + j.val = ((0 * 1 + 0) * 2048 + p.val) * 512 + j.val
    omega)

/-! ## A tile of scaled scores -/

/-- Query block against one key tile, scaled by 1/8. -/
def scoreTile (v1 : FVec Ideal S2048x64 .f32) (kk : FVec Ideal S1x1x512x64 .f32) : FVec Ideal S2048x512 .f32 :=
  mulf (matmul dot_S2048x64_S512x64_S2048x512_1_1_0_0_n_n (some .fp32) v1
      (shapeCast S512x64 kk shapeCasts_S1x1x512x64_S512x64) (constant S2048x512 .f32 0x00000000#32))
    (broadcast S2048x512 (Scalar.ofBits .f32 0x3E000000#32))

theorem isNT : Cert.DotNT.IsNT dot_S2048x64_S512x64_S2048x512_1_1_0_0_n_n := ⟨rfl, rfl, rfl, rfl, rfl, rfl⟩

theorem isPlain : Cert.PlainDot.IsPlain dot_S2048x512_S512x64_S2048x64_1_0_0_1_n_n := ⟨rfl, rfl, rfl, rfl, rfl, rfl⟩

theorem scoreTile_apply (v1 : FVec Ideal S2048x64 .f32) (kk : FVec Ideal S1x1x512x64 .f32) (p : Fin 2048) (j : Fin 512) :
    scoreTile v1 kk (ix2 p j)
      = (∑ d : Fin 64, v1 (ix2 p d) * kk (ix4 (0 : Fin 1) (0 : Fin 1) j d)) * Ideal.ofBits .f32 0x3E000000#32 := by
  show matmul dot_S2048x64_S512x64_S2048x512_1_1_0_0_n_n (some .fp32) v1
      (shapeCast S512x64 kk shapeCasts_S1x1x512x64_S512x64) (constant S2048x512 .f32 0x00000000#32) (ix2 p j)
      * Ideal.ofBits .f32 0x3E000000#32 = _
  rw [Cert.DotNT.matmul_zero_apply isNT]
  simp only [drop_tile]

/-! ## Columns: the running maximum and the tile sums -/

theorem tileMax_apply (mprev : FVec Ideal S2048x1 .f32) (X : FVec Ideal S2048x512 .f32) (p : Fin 2048) :
    maximumf mprev (shapeCast S2048x1 (multiReduction .maximumf [1] S2048 X 0xFF800000#32 reduces_S2048x512_S2048
        (.inl rfl) rfl) shapeCasts_S2048_S2048x1) (ix2 p (0 : Fin 1))
      = max (mprev (ix2 p (0 : Fin 1))) (cmax fun j : Fin 512 => X (ix2 p j)) := by
  refine congrArg (max (mprev (ix2 p (0 : Fin 1)))) ?_
  refine (Cert.Column.shapeCast_a_a1_apply _ shapeCasts_S2048_S2048x1 p (0 : Fin 1)).trans ?_
  refine (Cert.AxisFold.row_max X 0xFF800000#32 reduces_S2048x512_S2048 (.inl rfl) rfl p).trans ?_
  exact fold_eq_cmax _ _ _ neg_inf (fun _ => rfl)

theorem tileSum_apply (X : FVec Ideal S2048x512 .f32) (mnew : FVec Ideal S2048x1 .f32) (p : Fin 2048) :
    shapeCast S2048x1 (multiReduction .add [1] S2048
        (exp (subf X (broadcastTo S2048x512 mnew broadcasts_S2048x1_S2048x512))) 0x00000000#32
        reduces_S2048x512_S2048 (.inl rfl) rfl) shapeCasts_S2048_S2048x1 (ix2 p (0 : Fin 1))
      = ∑ j : Fin 512, Ideal.exp (X (ix2 p j) - mnew (ix2 p (0 : Fin 1))) := by
  refine (Cert.Column.shapeCast_a_a1_apply _ shapeCasts_S2048_S2048x1 p (0 : Fin 1)).trans ?_
  refine (Cert.AxisFold.row_sum _ reduces_S2048x512_S2048 (.inl rfl) rfl p).trans ?_
  refine Finset.sum_congr rfl fun j _ => ?_
  show Ideal.exp (X (ix2 p j) - broadcastTo S2048x512 mnew broadcasts_S2048x1_S2048x512 (ix2 p j)) = _
  rw [Cert.Column.broadcastTo_a1_ab_apply]

/-! ## A tile of weights, and its contribution to the context -/

theorem weightTile_apply (v1 : FVec Ideal S2048x64 .f32) (mm il : FVec Ideal S2048x1 .f32)
    (kk : FVec Ideal S1x1x512x64 .f32) (p : Fin 2048) (j : Fin 512) :
    k0_pay17 v1 mm il kk (ix2 p j)
      = Ideal.exp (scoreTile v1 kk (ix2 p j) - mm (ix2 p (0 : Fin 1))) * il (ix2 p (0 : Fin 1)) := by
  show Ideal.exp (scoreTile v1 kk (ix2 p j) - broadcastTo S2048x512 mm broadcasts_S2048x1_S2048x512 (ix2 p j))
      * broadcastTo S2048x512 il broadcasts_S2048x1_S2048x512 (ix2 p j) = _
  rw [Cert.Column.broadcastTo_a1_ab_apply, Cert.Column.broadcastTo_a1_ab_apply]

theorem pay21_eq (v1 : FVec Ideal S2048x64 .f32) (mm il : FVec Ideal S2048x1 .f32) (kk : FVec Ideal S1x1x512x64 .f32) :
    k0_pay21 v1 mm il kk = k0_pay17 v1 mm il kk := rfl
theorem pay23_eq (v1 : FVec Ideal S2048x64 .f32) (mm il : FVec Ideal S2048x1 .f32) (kk : FVec Ideal S1x1x512x64 .f32) :
    k0_pay23 v1 mm il kk = k0_pay17 v1 mm il kk := rfl
theorem pay27_eq (v1 : FVec Ideal S2048x64 .f32) (mm il : FVec Ideal S2048x1 .f32) (kk : FVec Ideal S1x1x512x64 .f32) :
    k0_pay27 v1 mm il kk = k0_pay17 v1 mm il kk := rfl

theorem ctxTile_apply (w : FVec Ideal S2048x512 .f32) (vv : FVec Ideal S1x1x512x64 .f32) (p : Fin 2048) (d : Fin 64) :
    matmul dot_S2048x512_S512x64_S2048x64_1_0_0_1_n_n (some .fp32) w
        (shapeCast S512x64 vv shapeCasts_S1x1x512x64_S512x64) (constant S2048x64 .f32 0x00000000#32) (ix2 p d)
      = ∑ j : Fin 512, w (ix2 p j) * vv (ix4 (0 : Fin 1) (0 : Fin 1) j d) := by
  rw [Cert.PlainDot.matmul_zero_apply isPlain]
  simp only [drop_tile]

end Cert.Attn.Body

end
-- ==== Proof.LibBlockSum.lean ====
import Mathlib.Algebra.BigOperators.Fin
import Mathlib.Algebra.BigOperators.Intervals

/-!
# Summing a long sequence block by block

A sum over `T * B` consecutive indices can be taken as `T` partial sums of `B`
consecutive terms each, added up one after the other.  In an additive commutative
monoid the result is the same as the single sum over all `T * B` indices:

* `Cert.BlockSum.sum_blocks`: the general statement, for any number `T` of blocks of any
  length `B`;
* `Cert.BlockSum.sum_20x5000`: twenty blocks of five thousand terms, started from zero,
  with the block count written `19 + 1` and the position written `5000 * s + r`, equal
  to the sum over all one hundred thousand indices.

Only commutativity and associativity of the addition are used.
-/

namespace Cert.BlockSum

/-- `T` partial sums of `B` consecutive terms add up to the sum over all `T * B` terms. -/
theorem sum_blocks {β : Type*} [AddCommMonoid β] (T B : ℕ) (f : ℕ → β) :
    ∑ s ∈ Finset.range T, ∑ r : Fin B, f (s * B + r.val) = ∑ n : Fin (T * B), f n.val := by
  rw [Fin.sum_univ_eq_sum_range (fun n => f n) (T * B)]
  induction T with
  | zero => simp
  | succ T ih =>
    -- the last block is the tail of the range of length `T * B + B`
    rw [Finset.sum_range_succ, ih, Nat.succ_mul, Finset.sum_range_add,
      Fin.sum_univ_eq_sum_range (fun r => f (T * B + r)) B]

/-- Twenty blocks of five thousand terms, accumulated from zero, give the sum of all
one hundred thousand terms. -/
theorem sum_20x5000 {β : Type*} [AddCommMonoid β] (g : Fin 100000 → β) (f : ℕ → β)
    (hf : ∀ n : Fin 100000, f n.val = g n) :
    (0 : β) + ∑ s ∈ Finset.range (19 + 1), ∑ r : Fin 5000, f (5000 * s + r.val)
      = ∑ n : Fin 100000, g n := by
  rw [zero_add]
  calc ∑ s ∈ Finset.range (19 + 1), ∑ r : Fin 5000, f (5000 * s + r.val)
      = ∑ s ∈ Finset.range 20, ∑ r : Fin 5000, f (s * 5000 + r.val) := by
        refine Finset.sum_congr rfl fun s _ => Finset.sum_congr rfl fun r _ => ?_
        rw [Nat.mul_comm]
    _ = ∑ n : Fin (20 * 5000), f n.val := sum_blocks 20 5000 f
    _ = ∑ n : Fin 100000, g n := Finset.sum_congr rfl fun n _ => hf n

end Cert.BlockSum
-- ==== Proof.LibOnlineSoftmax.lean ====
/-
  The online softmax law, on the extended reals.

  A softmax-weighted sum  Σ_n (e_n / Σ_n' e_n') · v_n  with  e_n = exp (s_n - M),  M = max_n s_n,  can be
  accumulated tile by tile without knowing M in advance.  The keys are cut into tiles of B consecutive
  positions.  A running maximum m, a running normaliser l and a running weighted sum a are kept; at tile k

      m' = max m (max of the tile's scores)
      l' = exp (m - m') · l + Σ_r exp (s_{kB+r} - m')
      a' = exp (m - m') · a + Σ_r exp (s_{kB+r} - m') · v_{kB+r}

  starting from m = -∞, l = 0, a = 0, and at the end the result is a / l.  When every score and value is a real
  number this is the one-pass softmax-weighted sum: after each tile m is the maximum M' of the scores seen so
  far, l = Σ exp (s_n - M') and a = Σ exp (s_n - M') · v_n over the positions seen so far, because
  exp (M_old - M') · exp (s_n - M_old) = exp (s_n - M'); on the first tile the factor exp (-∞ - M') is 0 and
  multiplies 0.  Dividing a finite real sum by the positive real normaliser distributes over the sum.
-/
import Idealize.ShloMosaic.PureOps.Ideal
import proofs.«125590_j70695161692391_2_alg».proof.Proof.LibLogShift
import proofs.«125590_j70695161692391_2_alg».proof.Proof.LibBlockSum

noncomputable section

open scoped BigOperators

namespace Cert.OnlineSoftmax

open Idealize.ShloMosaic Cert.LogShift

/-- A family over the first N positions, continued by zero: lets a tile address position k·B + r by a natural number. -/
def ext {N : ℕ} (f : Fin N → EReal) : ℕ → EReal := fun n => if h : n < N then f ⟨n, h⟩ else 0

theorem ext_apply {N : ℕ} (f : Fin N → EReal) (n : ℕ) (h : n < N) : ext f n = f ⟨n, h⟩ := dif_pos h

variable (B : ℕ)

/-- The running maximum after tile k, from the running maximum m before it. -/
def stepM (m : EReal) (s : ℕ → EReal) (k : ℕ) : EReal := max m (cmax fun r : Fin B => s (k * B + r.val))

/-- The running normaliser after tile k. -/
def stepL (m l : EReal) (s : ℕ → EReal) (k : ℕ) : EReal :=
  Ideal.exp (m - stepM B m s k) * l + ∑ r : Fin B, Ideal.exp (s (k * B + r.val) - stepM B m s k)

/-- The running weighted sum after tile k. -/
def stepA (m a : EReal) (s v : ℕ → EReal) (k : ℕ) : EReal :=
  Ideal.exp (m - stepM B m s k) * a + ∑ r : Fin B, Ideal.exp (s (k * B + r.val) - stepM B m s k) * v (k * B + r.val)

/-- The three running quantities after tiles 0, …, k, started from -∞, 0, 0. -/
def runM (s : ℕ → EReal) : ℕ → EReal
  | 0 => stepM B ⊥ s 0
  | k + 1 => stepM B (runM s k) s (k + 1)

def runL (s : ℕ → EReal) : ℕ → EReal
  | 0 => stepL B ⊥ 0 s 0
  | k + 1 => stepL B (runM B s k) (runL s k) s (k + 1)

def runA (s v : ℕ → EReal) : ℕ → EReal
  | 0 => stepA B ⊥ 0 s v 0
  | k + 1 => stepA B (runM B s k) (runA s v k) s v (k + 1)

/-! ## Real families

  With real scores and values every quantity of the recursion is a real number, so the law is proved over real
  families indexed by the natural numbers and transferred through `ext` at the end. -/

/-- A real family over the first N positions, continued by zero. -/
def rext {N : ℕ} (f : Fin N → ℝ) : ℕ → ℝ := fun n => if h : n < N then f ⟨n, h⟩ else 0

theorem rext_apply {N : ℕ} (f : Fin N → ℝ) (n : Fin N) : rext f n.val = f n := dif_pos n.2

/-- The continuation by zero of a family of real numbers is a family of real numbers. -/
theorem ext_coe {N : ℕ} (f : Fin N → ℝ) :
    ext (fun n => (f n : EReal)) = fun n => ((rext f n : ℝ) : EReal) := by
  funext n
  unfold ext rext
  split <;> rfl

theorem exp_coe_sub (a b : ℝ) : Ideal.exp ((a : EReal) - (b : EReal)) = ((Real.exp (a - b) : ℝ) : EReal) := by
  rw [← EReal.coe_sub, Ideal.exp_coe]

/-- A nonempty tile of real scores has a real maximum, which bounds the tile and is attained in it. -/
theorem tile_max (hB : 0 < B) (x : ℕ → ℝ) (k : ℕ) :
    ∃ μt : ℝ, cmax (fun r : Fin B => ((x (k * B + r.val) : ℝ) : EReal)) = (μt : EReal)
      ∧ (∀ r : Fin B, x (k * B + r.val) ≤ μt) ∧ ∃ r : Fin B, x (k * B + r.val) = μt := by
  have hne_bot : cmax (fun r : Fin B => ((x (k * B + r.val) : ℝ) : EReal)) ≠ ⊥ := by
    intro e
    exact EReal.coe_ne_bot _ (eq_bot_of_cmax_eq_bot e ⟨0, hB⟩)
  obtain ⟨r0, hr0⟩ := exists_eq_cmax hne_bot
  refine ⟨x (k * B + r0.val), hr0.symm, fun r => ?_, r0, rfl⟩
  have h := le_cmax (fun r : Fin B => ((x (k * B + r.val) : ℝ) : EReal)) r
  rw [← hr0] at h
  exact EReal.coe_le_coe_iff.mp h

/-- The running maximum from -∞ is the tile's maximum. -/
theorem stepM_bot (x : ℕ → ℝ) (k : ℕ) (μt : ℝ)
    (ht : cmax (fun r : Fin B => ((x (k * B + r.val) : ℝ) : EReal)) = (μt : EReal)) :
    stepM B ⊥ (fun n => ((x n : ℝ) : EReal)) k = (μt : EReal) := by
  unfold stepM
  rw [ht]
  exact max_eq_right bot_le

/-- The running maximum from a real number is the larger of it and the tile's maximum. -/
theorem stepM_coe (x : ℕ → ℝ) (k : ℕ) (μ μt : ℝ)
    (ht : cmax (fun r : Fin B => ((x (k * B + r.val) : ℝ) : EReal)) = (μt : EReal)) :
    stepM B (μ : EReal) (fun n => ((x n : ℝ) : EReal)) k = ((max μ μt : ℝ) : EReal) := by
  unfold stepM
  rw [ht]
  exact (EReal.coe_strictMono.monotone.map_max).symm

/-- From -∞ and 0 the normaliser is the tile's sum: the factor exp (-∞ - m') multiplies 0. -/
theorem stepL_bot (x : ℕ → ℝ) (k : ℕ) (μ' : ℝ)
    (hm : stepM B ⊥ (fun n => ((x n : ℝ) : EReal)) k = (μ' : EReal)) :
    stepL B ⊥ 0 (fun n => ((x n : ℝ) : EReal)) k
      = ((∑ r : Fin B, Real.exp (x (k * B + r.val) - μ') : ℝ) : EReal) := by
  unfold stepL
  rw [hm, mul_zero, zero_add]
  simp only [exp_coe_sub]
  rw [coe_sum]

theorem stepA_bot (x y : ℕ → ℝ) (k : ℕ) (μ' : ℝ)
    (hm : stepM B ⊥ (fun n => ((x n : ℝ) : EReal)) k = (μ' : EReal)) :
    stepA B ⊥ 0 (fun n => ((x n : ℝ) : EReal)) (fun n => ((y n : ℝ) : EReal)) k
      = ((∑ r : Fin B, Real.exp (x (k * B + r.val) - μ') * y (k * B + r.val) : ℝ) : EReal) := by
  unfold stepA
  rw [hm, mul_zero, zero_add]
  simp only [exp_coe_sub, ← EReal.coe_mul]
  rw [coe_sum]

/-- From real numbers the normaliser is a real number. -/
theorem stepL_coe (x : ℕ → ℝ) (k : ℕ) (μ μ' l : ℝ)
    (hm : stepM B (μ : EReal) (fun n => ((x n : ℝ) : EReal)) k = (μ' : EReal)) :
    stepL B (μ : EReal) (l : EReal) (fun n => ((x n : ℝ) : EReal)) k
      = ((Real.exp (μ - μ') * l + ∑ r : Fin B, Real.exp (x (k * B + r.val) - μ') : ℝ) : EReal) := by
  unfold stepL
  rw [hm]
  simp only [exp_coe_sub]
  rw [coe_sum, ← EReal.coe_mul, ← EReal.coe_add]

theorem stepA_coe (x y : ℕ → ℝ) (k : ℕ) (μ μ' a : ℝ)
    (hm : stepM B (μ : EReal) (fun n => ((x n : ℝ) : EReal)) k = (μ' : EReal)) :
    stepA B (μ : EReal) (a : EReal) (fun n => ((x n : ℝ) : EReal)) (fun n => ((y n : ℝ) : EReal)) k
      = ((Real.exp (μ - μ') * a + ∑ r : Fin B, Real.exp (x (k * B + r.val) - μ') * y (k * B + r.val) : ℝ) : EReal) := by
  unfold stepA
  rw [hm]
  simp only [exp_coe_sub, ← EReal.coe_mul]
  rw [coe_sum, ← EReal.coe_add]

/-- THE INVARIANT: after tile k the running maximum is a real number μ that bounds the (k + 1) · B scores seen so
    far and is one of them, and the normaliser and the weighted sum are the sums of exp (x n - μ) and of
    exp (x n - μ) · y n over those positions. -/
theorem run_inv (hB : 0 < B) (x y : ℕ → ℝ) (k : ℕ) :
    ∃ μ : ℝ, runM B (fun n => ((x n : ℝ) : EReal)) k = (μ : EReal)
      ∧ (∀ n, n < (k + 1) * B → x n ≤ μ)
      ∧ (∃ n, n < (k + 1) * B ∧ x n = μ)
      ∧ runL B (fun n => ((x n : ℝ) : EReal)) k
          = ((∑ n ∈ Finset.range ((k + 1) * B), Real.exp (x n - μ) : ℝ) : EReal)
      ∧ runA B (fun n => ((x n : ℝ) : EReal)) (fun n => ((y n : ℝ) : EReal)) k
          = ((∑ n ∈ Finset.range ((k + 1) * B), Real.exp (x n - μ) * y n : ℝ) : EReal) := by
  induction k with
  | zero =>
    obtain ⟨μt, ht, hub, r0, hr0⟩ := tile_max B hB x 0
    have hm := stepM_bot B x 0 μt ht
    refine ⟨μt, hm, ?_, ?_, ?_, ?_⟩
    · intro n hn
      have hn' : n < B := by simpa using hn
      simpa using hub ⟨n, hn'⟩
    · exact ⟨r0.val, by simpa using r0.2, by simpa using hr0⟩
    · show stepL B ⊥ 0 (fun n => ((x n : ℝ) : EReal)) 0 = _
      rw [stepL_bot B x 0 μt hm, Fin.sum_univ_eq_sum_range (fun n => Real.exp (x (0 * B + n) - μt)) B]
      simp
    · show stepA B ⊥ 0 (fun n => ((x n : ℝ) : EReal)) (fun n => ((y n : ℝ) : EReal)) 0 = _
      rw [stepA_bot B x y 0 μt hm,
        Fin.sum_univ_eq_sum_range (fun n => Real.exp (x (0 * B + n) - μt) * y (0 * B + n)) B]
      simp
  | succ k ih =>
    obtain ⟨μ, hM, hub, ⟨n0, hn0, hatt⟩, hL, hA⟩ := ih
    obtain ⟨μt, ht, hubt, r0, hr0⟩ := tile_max B hB x (k + 1)
    have hm := stepM_coe B x (k + 1) μ μt ht
    have hsucc : (k + 1 + 1) * B = (k + 1) * B + B := Nat.succ_mul (k + 1) B
    refine ⟨max μ μt, ?_, ?_, ?_, ?_, ?_⟩
    · show stepM B (runM B (fun n => ((x n : ℝ) : EReal)) k) (fun n => ((x n : ℝ) : EReal)) (k + 1) = _
      rw [hM]; exact hm
    · intro n hn
      by_cases h : n < (k + 1) * B
      · exact le_trans (hub n h) (le_max_left _ _)
      · obtain ⟨r, rfl⟩ := Nat.exists_eq_add_of_le (not_lt.mp h)
        have hr : r < B := by omega
        exact le_trans (hubt ⟨r, hr⟩) (le_max_right _ _)
    · rcases le_total μt μ with h | h
      · exact ⟨n0, by omega, by rw [max_eq_left h]; exact hatt⟩
      · exact ⟨(k + 1) * B + r0.val, by have := r0.2; omega, by rw [max_eq_right h]; exact hr0⟩
    · show stepL B (runM B (fun n => ((x n : ℝ) : EReal)) k) (runL B (fun n => ((x n : ℝ) : EReal)) k)
          (fun n => ((x n : ℝ) : EReal)) (k + 1) = _
      rw [hM, hL, stepL_coe B x (k + 1) μ (max μ μt) _ hm, hsucc, Finset.sum_range_add, Finset.mul_sum,
        Fin.sum_univ_eq_sum_range (fun n => Real.exp (x ((k + 1) * B + n) - max μ μt)) B]
      congr 2
      refine Finset.sum_congr rfl fun n _ => ?_
      rw [← Real.exp_add]
      congr 1
      ring
    · show stepA B (runM B (fun n => ((x n : ℝ) : EReal)) k)
          (runA B (fun n => ((x n : ℝ) : EReal)) (fun n => ((y n : ℝ) : EReal)) k)
          (fun n => ((x n : ℝ) : EReal)) (fun n => ((y n : ℝ) : EReal)) (k + 1) = _
      rw [hM, hA, stepA_coe B x y (k + 1) μ (max μ μt) _ hm, hsucc, Finset.sum_range_add, Finset.mul_sum,
        Fin.sum_univ_eq_sum_range
          (fun n => Real.exp (x ((k + 1) * B + n) - max μ μt) * y ((k + 1) * B + n)) B]
      congr 2
      refine Finset.sum_congr rfl fun n _ => ?_
      rw [← mul_assoc, ← Real.exp_add]
      congr 2
      ring

/-- THE LAW: for real scores σ and values ν over N = (T + 1) · B positions (B > 0), the tile-by-tile result
    a / l after the last tile is the one-pass softmax-weighted sum. -/
theorem online_softmax (T : ℕ) (hB : 0 < B) (N : ℕ) (hN : N = (T + 1) * B) (σ ν : Fin N → ℝ) :
    Ideal.div (runA B (ext fun n => (σ n : EReal)) (ext fun n => (ν n : EReal)) T) (runL B (ext fun n => (σ n : EReal)) T)
      = ∑ n : Fin N, Ideal.div (Ideal.exp ((σ n : EReal) - cmax fun n' : Fin N => (σ n' : EReal)))
            (∑ n' : Fin N, Ideal.exp ((σ n' : EReal) - cmax fun n'' : Fin N => (σ n'' : EReal))) * (ν n : EReal) := by
  subst hN
  rw [ext_coe, ext_coe]
  obtain ⟨μ, -, hub, ⟨n0, hn0, hatt⟩, hL, hA⟩ := run_inv B hB (rext σ) (rext ν) T
  -- the maximum of all the scores is μ
  have hcm : cmax (fun n : Fin ((T + 1) * B) => (σ n : EReal)) = (μ : EReal) := by
    apply le_antisymm
    · refine cmax_le fun n => EReal.coe_le_coe_iff.mpr ?_
      rw [← rext_apply σ n]
      exact hub n.val n.2
    · refine le_trans (le_of_eq ?_) (le_cmax (fun n : Fin ((T + 1) * B) => (σ n : EReal)) ⟨n0, hn0⟩)
      show (μ : EReal) = ((σ ⟨n0, hn0⟩ : ℝ) : EReal)
      rw [← hatt, ← rext_apply σ ⟨n0, hn0⟩]
  -- the sums over the first N natural numbers are the sums over the N positions
  have hLs : (∑ n ∈ Finset.range ((T + 1) * B), Real.exp (rext σ n - μ))
      = ∑ n : Fin ((T + 1) * B), Real.exp (σ n - μ) := by
    rw [← Fin.sum_univ_eq_sum_range (fun n => Real.exp (rext σ n - μ))]
    exact Finset.sum_congr rfl fun n _ => by rw [rext_apply]
  have hAs : (∑ n ∈ Finset.range ((T + 1) * B), Real.exp (rext σ n - μ) * rext ν n)
      = ∑ n : Fin ((T + 1) * B), Real.exp (σ n - μ) * ν n := by
    rw [← Fin.sum_univ_eq_sum_range (fun n => Real.exp (rext σ n - μ) * rext ν n)]
    exact Finset.sum_congr rfl fun n _ => by rw [rext_apply, rext_apply]
  -- the normaliser is a positive real number
  have hpos : 0 < ∑ n : Fin ((T + 1) * B), Real.exp (σ n - μ) :=
    Finset.sum_pos (fun _ _ => Real.exp_pos _) ⟨⟨n0, hn0⟩, Finset.mem_univ _⟩
  rw [hcm, hA, hL, hLs, hAs]
  simp only [exp_coe_sub]
  rw [coe_sum]
  simp only [Ideal.div_coe (ne_of_gt hpos), ← EReal.coe_mul]
  rw [coe_sum, Finset.sum_mul]
  congr 1
  exact Finset.sum_congr rfl fun n _ => by ring

end Cert.OnlineSoftmax

end
-- ==== Proof.Spec.lean ====
/-
  Scaled dot-product attention for one batch, sixteen heads, 2048 positions and head width 64, written twice as
  functions of the three argument arrays Q, K, V (extended reals indexed by (0, head, position, lane)).

  Both forms start from the dot product  qk h p k = Σ_d Q[0,h,p,d] · K[0,h,k,d]  of query row p with key row k.

  The ONE-PASS form scales by division, score = qk / 8, takes the row maximum M = max_k score_k, and sets
      attn[h,p,k] = exp (score_k - M) / Σ_k' exp (score_k' - M),      ctx[h,p,d] = Σ_k attn[h,p,k] · V[0,h,k,d].

  The TILED form scales by multiplication, score = qk · (1/8), and cuts the 2048 key positions into four tiles of
  512.  A first sweep carries a running maximum m and a running normaliser l over the tiles
      m' = max m (tile maximum),   l' = exp (m - m') · l + Σ_tile exp (score - m'),   from m = -∞, l = 0;
  a second sweep uses the final m and l:
      attn[h,p,k] = exp (score_k - m) · (1 / l),      ctx[h,p,d] = (((0 + Σ_tile0) + Σ_tile1) + Σ_tile2) + Σ_tile3
  of the products attn[h,p,k] · V[0,h,k,d].

  For real Q and K the two forms agree: 1/8 is a dyadic rational, after the last tile m is the row maximum and l the
  full normaliser (the factor exp (m - m') rescales the earlier tiles' terms), multiplying by 1 / l is dividing by
  the positive real l, and a sum over four consecutive tiles of 512 is the sum over 2048.
-/
import Idealize.ShloMosaic.PureOps.Ideal
import Idealize.ShloMosaic.Lib.ValueIdx
import proofs.«125590_j70695161692391_2_alg».proof.Proof.LibLogShift
import proofs.«125590_j70695161692391_2_alg».proof.Proof.LibOnlineSoftmax

noncomputable section

open scoped BigOperators

namespace Cert.Attn

open Idealize.ShloMosaic Idealize.ShloMosaic.ValueIdx Cert.LogShift Cert.OnlineSoftmax

/-- The shape of Q, K, V and of the context result. -/
abbrev SQ : Shape := ⟨4, ![1, 16, 2048, 64]⟩
/-- The shape of the attention-weights result. -/
abbrev SA : Shape := ⟨4, ![1, 16, 2048, 2048]⟩

/-- Key position j of tile c. -/
def pos (c : Fin 4) (j : Fin 512) : Fin 2048 := ⟨c.val * 512 + j.val, by have := c.isLt; have := j.isLt; omega⟩

/-- Query row p against key row k in head h. -/
def qk (Q K : SQ.Idx → EReal) (h : Fin 16) (p k : Fin 2048) : EReal :=
  ∑ d : Fin 64, Q (ix4 (0 : Fin 1) h p d) * K (ix4 (0 : Fin 1) h k d)

/-! ## The one-pass form -/

/-- Row p's scores, scaled by dividing by 8. -/
def scoreR (Q K : SQ.Idx → EReal) (h : Fin 16) (p : Fin 2048) : Fin 2048 → EReal :=
  fun k => Ideal.div (qk Q K h p k) (Ideal.ofBits .f32 0x41000000#32)

/-- The softmax of one row of scores, entry k, shifted by the row maximum. -/
def softmaxRow (S : Fin 2048 → EReal) (k : Fin 2048) : EReal :=
  Ideal.div (Ideal.exp (S k - cmax S)) (∑ k' : Fin 2048, Ideal.exp (S k' - cmax S))

def attnR (Q K : SQ.Idx → EReal) (h : Fin 16) (p k : Fin 2048) : EReal := softmaxRow (scoreR Q K h p) k

def ctxR (Q K V : SQ.Idx → EReal) (h : Fin 16) (p : Fin 2048) (d : Fin 64) : EReal :=
  ∑ k : Fin 2048, attnR Q K h p k * V (ix4 (0 : Fin 1) h k d)

/-! ## The tiled form -/

/-- Row p's scores, scaled by multiplying by 1/8. -/
def scoreK (Q K : SQ.Idx → EReal) (h : Fin 16) (p : Fin 2048) : Fin 2048 → EReal :=
  fun k => qk Q K h p k * Ideal.ofBits .f32 0x3E000000#32

/-- Entry k of a row normalised by the running maximum and normaliser after the fourth tile of 512. -/
def onlineRow (S : Fin 2048 → EReal) (k : Fin 2048) : EReal :=
  Ideal.exp (S k - runM 512 (ext S) 3) * Ideal.div (Ideal.ofBits .f32 0x3F800000#32) (runL 512 (ext S) 3)

def attnK (Q K : SQ.Idx → EReal) (h : Fin 16) (p k : Fin 2048) : EReal := onlineRow (scoreK Q K h p) k

/-- A sum over 2048 positions taken tile by tile into a zero accumulator. -/
def chunkSum (f : Fin 2048 → EReal) : EReal :=
  (((0 + ∑ j : Fin 512, f (pos 0 j)) + ∑ j : Fin 512, f (pos 1 j)) + ∑ j : Fin 512, f (pos 2 j))
    + ∑ j : Fin 512, f (pos 3 j)

def ctxK (Q K V : SQ.Idx → EReal) (h : Fin 16) (p : Fin 2048) (d : Fin 64) : EReal :=
  chunkSum fun k => attnK Q K h p k * V (ix4 (0 : Fin 1) h k d)

/-! ## As whole arrays -/

def GattnR (Q K : SQ.Idx → EReal) : SA.Idx → EReal := fun i => attnR Q K (i 1) (i 2) (i 3)
def GctxR (Q K V : SQ.Idx → EReal) : SQ.Idx → EReal := fun i => ctxR Q K V (i 1) (i 2) (i 3)
def GattnK (Q K : SQ.Idx → EReal) : SA.Idx → EReal := fun i => attnK Q K (i 1) (i 2) (i 3)
def GctxK (Q K V : SQ.Idx → EReal) : SQ.Idx → EReal := fun i => ctxK Q K V (i 1) (i 2) (i 3)

end Cert.Attn

end
-- ==== Proof.Tiles.lean ====
/-
  The tile-by-tile recurrences of the first sweep, written the way the vector unit computes them, and their
  identification with the running maximum and running normaliser of the online-softmax recursion.

  A row of 2048 scores S is cut into four tiles of 512, tile c being j ↦ S (512·c + j).  One step takes the running
  maximum m and the running normaliser l to
      m' = max m (max of the tile),      l' = l · exp (m - m') + Σ_j exp (tile_j - m'),
  and the sweep starts from m = -∞, l = 0.  The recursion of the online-softmax law writes the same step with the
  factor on the left, exp (m - m') · l, and addresses the tile through natural numbers; multiplication of extended
  reals commutes, so the two are the same numbers.
-/
import proofs.«125590_j70695161692391_2_alg».proof.Proof.Spec

noncomputable section

open scoped BigOperators

namespace Cert.Attn

open Idealize.ShloMosaic Cert.LogShift Cert.OnlineSoftmax

/-- Tile c of a row. -/
def tile (S : Fin 2048 → EReal) (c : Fin 4) : Fin 512 → EReal := fun j => S (pos c j)

/-- One step of the running maximum. -/
def mStep (m : EReal) (T : Fin 512 → EReal) : EReal := max m (cmax T)

/-- One step of the running normaliser, the rescaling factor on the right. -/
def lStep (m l : EReal) (T : Fin 512 → EReal) : EReal :=
  l * Ideal.exp (m - mStep m T) + ∑ j : Fin 512, Ideal.exp (T j - mStep m T)

def m1 (S : Fin 2048 → EReal) : EReal := mStep ⊥ (tile S 0)
def m2 (S : Fin 2048 → EReal) : EReal := mStep (m1 S) (tile S 1)
def m3 (S : Fin 2048 → EReal) : EReal := mStep (m2 S) (tile S 2)
def m4 (S : Fin 2048 → EReal) : EReal := mStep (m3 S) (tile S 3)

def l1 (S : Fin 2048 → EReal) : EReal := lStep ⊥ 0 (tile S 0)
def l2 (S : Fin 2048 → EReal) : EReal := lStep (m1 S) (l1 S) (tile S 1)
def l3 (S : Fin 2048 → EReal) : EReal := lStep (m2 S) (l2 S) (tile S 2)
def l4 (S : Fin 2048 → EReal) : EReal := lStep (m3 S) (l3 S) (tile S 3)

/-- Position 512·c + j, addressed through the natural numbers, is entry j of tile c. -/
theorem ext_pos (S : Fin 2048 → EReal) (c : Fin 4) (j : Fin 512) : ext S (c.val * 512 + j.val) = S (pos c j) := by
  unfold pos
  exact ext_apply S _ _

theorem stepM_tile (S : Fin 2048 → EReal) (m : EReal) (c : Fin 4) :
    stepM 512 m (ext S) c.val = mStep m (tile S c) := by
  unfold stepM mStep tile
  rw [show (fun r : Fin 512 => ext S (c.val * 512 + r.val)) = fun j => S (pos c j) from funext (ext_pos S c)]

theorem stepL_tile (S : Fin 2048 → EReal) (m l : EReal) (c : Fin 4) :
    stepL 512 m l (ext S) c.val = lStep m l (tile S c) := by
  unfold stepL lStep
  rw [stepM_tile, mul_comm]
  congr 1
  exact Finset.sum_congr rfl fun j _ => by rw [ext_pos]; rfl

theorem runM_unfold (s : ℕ → EReal) :
    runM 512 s 3 = stepM 512 (stepM 512 (stepM 512 (stepM 512 ⊥ s (0 : Fin 4).val) s (1 : Fin 4).val) s (2 : Fin 4).val) s
      (3 : Fin 4).val := rfl

theorem runM2_unfold (s : ℕ → EReal) :
    runM 512 s 2 = stepM 512 (stepM 512 (stepM 512 ⊥ s (0 : Fin 4).val) s (1 : Fin 4).val) s (2 : Fin 4).val := rfl

theorem runM1_unfold (s : ℕ → EReal) : runM 512 s 1 = stepM 512 (stepM 512 ⊥ s (0 : Fin 4).val) s (1 : Fin 4).val := rfl

theorem runM0_unfold (s : ℕ → EReal) : runM 512 s 0 = stepM 512 ⊥ s (0 : Fin 4).val := rfl

theorem runL_unfold (s : ℕ → EReal) :
    runL 512 s 3 = stepL 512 (runM 512 s 2) (stepL 512 (runM 512 s 1) (stepL 512 (runM 512 s 0)
      (stepL 512 ⊥ 0 s (0 : Fin 4).val) s (1 : Fin 4).val) s (2 : Fin 4).val) s (3 : Fin 4).val := rfl

/-- The running maximum after the fourth tile. -/
theorem m4_eq (S : Fin 2048 → EReal) : m4 S = runM 512 (ext S) 3 := by
  rw [runM_unfold, stepM_tile, stepM_tile, stepM_tile, stepM_tile]
  rfl

/-- The running normaliser after the fourth tile. -/
theorem l4_eq (S : Fin 2048 → EReal) : l4 S = runL 512 (ext S) 3 := by
  rw [runL_unfold, runM2_unfold, runM1_unfold, runM0_unfold]
  simp only [stepM_tile, stepL_tile]
  rfl

/-- An entry of the row normalised by the final running quantities, in the vector unit's terms. -/
theorem onlineRow_eq (S : Fin 2048 → EReal) (k : Fin 2048) :
    onlineRow S k = Ideal.exp (S k - m4 S) * Ideal.div (Ideal.ofBits .f32 0x3F800000#32) (l4 S) := by
  rw [m4_eq, l4_eq]
  rfl

end Cert.Attn

end
-- ==== Proof.BodyRow.lean ====
/-
  One query row through the first sweep and the weights of the second.

  Fix a row p of the query block and let S be that row's 2048 scaled scores, tile c of it being the row of the c-th
  score tile.  Reading the body's columns at (p, 0):
    * the running maximum after tiles 0, 1, 2, 3 is m1 S, m2 S, m3 S, m4 S (it starts from the word of -∞);
    * the normaliser is carried as  l · exp (m - m')  plus the tile's sum of exp (score - m'), from l = 0, so after
      the fourth tile it is l4 S, and the column the second sweep multiplies by is 1 / l4 S;
    * a weight of tile c at (p, j) is exp (S (512·c + j) - m4 S) · (1 / l4 S).
  The body computes tiles 0 and 1 from the loaded blocks and tiles 2 and 3 from the carried columns, so the later
  steps are stated over arbitrary columns that hold the earlier values at row p.
-/
import proofs.«125590_j70695161692391_2_alg».proof.Proof.BodyOps
import proofs.«125590_j70695161692391_2_alg».proof.Proof.Tiles

noncomputable section

open scoped BigOperators

namespace Cert.Attn.Body

open Idealize.ShloMosaic Idealize.ShloMosaic.ValueIdx Cert.KernelIdeal Cert.KernelIdeal.Gen Cert.LogShift Cert.Attn

variable (p : Fin 2048) (S : Fin 2048 → EReal)

/-- The initial running maximum is -∞. -/
theorem pay4_at : k0_pay4 (F := Ideal) (ix2 p (0 : Fin 1)) = (⊥ : EReal) := neg_inf

/-- The exponential of a vector, at one entry. -/
theorem exp_at {s : Shape} {φ : FTy} (a : FVec Ideal s φ) (i : s.Idx) :
    Idealize.ShloMosaic.exp a i = Ideal.exp (a i) := rfl

/-- The first tile's scores, as a score tile. -/
theorem pay5_eq (v0 : FVec Ideal S1x1x2048x64 .f32) (v4 : FVec Ideal S1x1x512x64 .f32) :
    k0_pay5 (F := Ideal) v0 v4 = scoreTile (k0_pay3 v0) v4 := rfl

section first_two
variable (Q0 : FVec Ideal S1x1x2048x64 .f32) (K1 K2 : FVec Ideal S1x1x512x64 .f32)
variable (h0 : ∀ j : Fin 512, scoreTile (k0_pay3 Q0) K1 (ix2 p j) = S (pos 0 j))
variable (h1 : ∀ j : Fin 512, scoreTile (k0_pay3 Q0) K2 (ix2 p j) = S (pos 1 j))

include h0 in
theorem pay6_at : k0_pay6 (F := Ideal) Q0 K1 (ix2 p (0 : Fin 1)) = m1 S := by
  refine (tileMax_apply (k0_pay4 (F := Ideal)) (scoreTile (k0_pay3 Q0) K1) p).trans ?_
  rw [show (fun j : Fin 512 => scoreTile (k0_pay3 Q0) K1 (ix2 p j)) = tile S 0 from funext h0, pay4_at]
  rfl

include h0 h1 in
theorem pay8_at : k0_pay8 (F := Ideal) Q0 K1 K2 (ix2 p (0 : Fin 1)) = m2 S := by
  refine (tileMax_apply (k0_pay6 (F := Ideal) Q0 K1) (scoreTile (k0_pay3 Q0) K2) p).trans ?_
  rw [show (fun j : Fin 512 => scoreTile (k0_pay3 Q0) K2 (ix2 p j)) = tile S 1 from funext h1, pay6_at p S Q0 K1 h0]
  rfl

include h0 h1 in
/-- The normaliser after tile 0, already rescaled for tile 1's maximum. -/
theorem pay9_at : k0_pay9 (F := Ideal) Q0 K1 K2 (ix2 p (0 : Fin 1)) = l1 S * Ideal.exp (m1 S - m2 S) := by
  unfold k0_pay9
  simp only [mulf_apply, addf_apply, subf_apply, broadcast_apply]
  rw [exp_at, exp_at, subf_apply, subf_apply, pay5_eq, tileSum_apply, pay4_at, pay6_at p S Q0 K1 h0,
    pay8_at p S Q0 K1 K2 h0 h1, Ideal.ofBits_def, Ideal.ofBits_zero_f32]
  simp only [h0]
  rfl

include h0 h1 in
/-- Tile 1's sum of exponentials. -/
theorem pay10_at : k0_pay10 (F := Ideal) Q0 K1 K2 (ix2 p (0 : Fin 1)) = ∑ j : Fin 512, Ideal.exp (S (pos 1 j) - m2 S) := by
  refine (tileSum_apply (scoreTile (k0_pay3 Q0) K2) (k0_pay8 (F := Ideal) Q0 K1 K2) p).trans ?_
  rw [pay8_at p S Q0 K1 K2 h0 h1]
  simp only [h1]

end first_two

section last_two
variable (v1 : FVec Ideal S2048x64 .f32) (v28 v31 v36 : FVec Ideal S2048x1 .f32) (K3 K4 : FVec Ideal S1x1x512x64 .f32)
variable (h2 : ∀ j : Fin 512, scoreTile v1 K3 (ix2 p j) = S (pos 2 j))
variable (h3 : ∀ j : Fin 512, scoreTile v1 K4 (ix2 p j) = S (pos 3 j))
variable (hm : v28 (ix2 p (0 : Fin 1)) = m2 S)
variable (hl : v31 (ix2 p (0 : Fin 1)) = l1 S * Ideal.exp (m1 S - m2 S))
variable (hs : v36 (ix2 p (0 : Fin 1)) = ∑ j : Fin 512, Ideal.exp (S (pos 1 j) - m2 S))

include h2 hm in
theorem pay12_at : k0_pay12 v1 v28 K3 (ix2 p (0 : Fin 1)) = m3 S := by
  refine (tileMax_apply v28 (scoreTile v1 K3) p).trans ?_
  rw [show (fun j : Fin 512 => scoreTile v1 K3 (ix2 p j)) = tile S 2 from funext h2, hm]
  rfl

include h2 h3 hm in
/-- The final running maximum. -/
theorem pay14_at : k0_pay14 v1 v28 K3 K4 (ix2 p (0 : Fin 1)) = m4 S := by
  refine (tileMax_apply (k0_pay12 v1 v28 K3) (scoreTile v1 K4) p).trans ?_
  rw [show (fun j : Fin 512 => scoreTile v1 K4 (ix2 p j)) = tile S 3 from funext h3, pay12_at p S v1 v28 K3 h2 hm]
  rfl

include h2 h3 hm hl hs in
/-- The column the second sweep multiplies by: one over the final normaliser. -/
theorem pay15_at : k0_pay15 v1 v28 v31 v36 K3 K4 (ix2 p (0 : Fin 1))
    = Ideal.div (Ideal.ofBits .f32 0x3F800000#32) (l4 S) := by
  show Ideal.div (Ideal.ofBits .f32 0x3F800000#32)
      (((v31 (ix2 p (0 : Fin 1)) + v36 (ix2 p (0 : Fin 1)))
            * Ideal.exp (v28 (ix2 p (0 : Fin 1)) - k0_pay12 v1 v28 K3 (ix2 p (0 : Fin 1)))
          + shapeCast S2048x1 (multiReduction .add [1] S2048
              (exp (subf (scoreTile v1 K3) (broadcastTo S2048x512 (k0_pay12 v1 v28 K3) broadcasts_S2048x1_S2048x512)))
              0x00000000#32 reduces_S2048x512_S2048 (.inl rfl) rfl) shapeCasts_S2048_S2048x1 (ix2 p (0 : Fin 1)))
          * Ideal.exp (k0_pay12 v1 v28 K3 (ix2 p (0 : Fin 1)) - k0_pay14 v1 v28 K3 K4 (ix2 p (0 : Fin 1)))
        + shapeCast S2048x1 (multiReduction .add [1] S2048
            (exp (subf (scoreTile v1 K4) (broadcastTo S2048x512 (k0_pay14 v1 v28 K3 K4) broadcasts_S2048x1_S2048x512)))
            0x00000000#32 reduces_S2048x512_S2048 (.inl rfl) rfl) shapeCasts_S2048_S2048x1 (ix2 p (0 : Fin 1))) = _
  rw [tileSum_apply, tileSum_apply, pay12_at p S v1 v28 K3 h2 hm, pay14_at p S v1 v28 K3 K4 h2 h3 hm, hm, hl, hs]
  simp only [h2, h3]
  rfl

include h2 h3 hm hl hs in
/-- A weight of a tile, given that the tile's scores at row p are tile c of S. -/
theorem weight_at (kk : FVec Ideal S1x1x512x64 .f32) (c : Fin 4)
    (hk : ∀ j : Fin 512, scoreTile v1 kk (ix2 p j) = S (pos c j)) (j : Fin 512) :
    k0_pay17 v1 (k0_pay14 v1 v28 K3 K4) (k0_pay15 v1 v28 v31 v36 K3 K4) kk (ix2 p j) = onlineRow S (pos c j) := by
  rw [weightTile_apply, hk, pay14_at p S v1 v28 K3 K4 h2 h3 hm, pay15_at p S v1 v28 v31 v36 K3 K4 h2 h3 hm hl hs,
    onlineRow_eq]

end last_two

end Cert.Attn.Body

end
-- ==== Proof.BodyBlock.lean ====
/-
  What the body leaves in its two output blocks, as functions of the query, key and value blocks x0, x1, x2
  (each [1, 1, 2048, 64], one head's rows).

  Row p's scaled scores are  bs x0 x1 p k = (Σ_d x0[p,d] · x1[k,d]) · (1/8).  The key and value tiles the body loads
  are rows 512·c … 512·c + 511 of x1 and x2, so the c-th score tile's row p is tile c of bs x0 x1 p.  Hence
    * the weights block at (p, k) is the row's entry k normalised by the final running maximum and normaliser: the
      four stores write the four tiles side by side and together cover the block;
    * the context block at (p, d) is the tile-by-tile sum, into a zero accumulator, of weight · x2[k,d].
-/
import proofs.«125590_j70695161692391_2_alg».proof.Proof.Gen.KernelIdeal.Frame
import proofs.«125590_j70695161692391_2_alg».proof.Proof.BodyRow

set_option maxRecDepth 16384

noncomputable section

open scoped BigOperators

namespace Cert.Attn.Body

open Idealize.ShloMosaic Idealize.ShloMosaic.ValueIdx Cert.KernelIdeal Cert.KernelIdeal.Gen Cert.LogShift Cert.Attn

/-- Row p's scaled scores against every key row of the block. -/
def bs (x0 x1 : FVec Ideal S1x1x2048x64 .f32) (p : Fin 2048) : Fin 2048 → EReal :=
  fun k => (∑ d : Fin 64, x0 (ix4 (0 : Fin 1) (0 : Fin 1) p d) * x1 (ix4 (0 : Fin 1) (0 : Fin 1) k d))
    * Ideal.ofBits .f32 0x3E000000#32

theorem hz4 : (![0, 0, 0, 0] : Fin 4 → Nat) = fun _ => 0 := funext fun a => by fin_cases a <;> rfl

/-- The whole-block load is the block. -/
theorem ld_whole (x : Vec Ideal S1x1x2048x64 .f32) : View.ld x r0_0 = x :=
  View.ld_unit_zero (S := S1x1x2048x64) hz4 _ x

/-- A load of 512 rows starting at row 512·c reads tile c of the block. -/
theorem ld_tile (x : Vec Ideal S1x1x2048x64 .f32) {off : Fin 4 → ℕ}
    (inb : ∀ i, off i + S1x1x512x64.size i ≤ S1x1x2048x64.size i) (c : Fin 4)
    (e0 : off 0 = 0) (e1 : off 1 = 0) (e2 : off 2 = c.val * 512) (e3 : off 3 = 0) (j : Fin 512) (d : Fin 64) :
    View.ld x (Rect.unit (s := S1x1x2048x64) off S1x1x512x64.size inb) (ix4 (0 : Fin 1) (0 : Fin 1) j d)
      = x (ix4 (0 : Fin 1) (0 : Fin 1) (pos c j) d) := by
  show x _ = x _
  congr 1
  funext i
  apply Fin.ext
  match i with
  | ⟨0, _⟩ => show off 0 + 1 * 0 = 0; omega
  | ⟨1, _⟩ => show off 1 + 1 * 0 = 0; omega
  | ⟨2, _⟩ => show off 2 + 1 * j.val = c.val * 512 + j.val; omega
  | ⟨3, _⟩ => show off 3 + 1 * d.val = d.val; omega

theorem ld_t0 (x : Vec Ideal S1x1x2048x64 .f32) (j : Fin 512) (d : Fin 64) :
    View.ld x r0_1 (ix4 (0 : Fin 1) (0 : Fin 1) j d) = x (ix4 (0 : Fin 1) (0 : Fin 1) (pos 0 j) d) :=
  ld_tile x _ 0 rfl rfl rfl rfl j d
theorem ld_t1 (x : Vec Ideal S1x1x2048x64 .f32) (j : Fin 512) (d : Fin 64) :
    View.ld x r0_2 (ix4 (0 : Fin 1) (0 : Fin 1) j d) = x (ix4 (0 : Fin 1) (0 : Fin 1) (pos 1 j) d) :=
  ld_tile x _ 1 rfl rfl rfl rfl j d
theorem ld_t2 (x : Vec Ideal S1x1x2048x64 .f32) (j : Fin 512) (d : Fin 64) :
    View.ld x r0_3 (ix4 (0 : Fin 1) (0 : Fin 1) j d) = x (ix4 (0 : Fin 1) (0 : Fin 1) (pos 2 j) d) :=
  ld_tile x _ 2 rfl rfl rfl rfl j d
theorem ld_t3 (x : Vec Ideal S1x1x2048x64 .f32) (j : Fin 512) (d : Fin 64) :
    View.ld x r0_4 (ix4 (0 : Fin 1) (0 : Fin 1) j d) = x (ix4 (0 : Fin 1) (0 : Fin 1) (pos 3 j) d) :=
  ld_tile x _ 3 rfl rfl rfl rfl j d

/-- A score tile against rows 512·c … of the key block is tile c of the row's scores. -/
theorem score_tile (x0 x1 : Vec Ideal S1x1x2048x64 .f32) (p : Fin 2048) (c : Fin 4) (kk : FVec Ideal S1x1x512x64 .f32)
    (hkk : ∀ (j : Fin 512) (d : Fin 64), kk (ix4 (0 : Fin 1) (0 : Fin 1) j d) = x1 (ix4 (0 : Fin 1) (0 : Fin 1) (pos c j) d))
    (j : Fin 512) : scoreTile (k0_pay3 (F := Ideal) (View.ld x0 r0_0)) kk (ix2 p j) = bs x0 x1 p (pos c j) := by
  rw [scoreTile_apply]
  unfold bs
  congr 1
  refine Finset.sum_congr rfl fun d _ => ?_
  rw [hkk]
  congr 1
  show shapeCast S2048x64 (View.ld x0 r0_0) shapeCasts_S1x1x2048x64_S2048x64 (ix2 p d) = _
  rw [drop_block, ld_whole]

/-! ## The columns of one point -/

/-- The final running maximum, from the blocks. -/
abbrev Mcol (x0 x1 : Vec Ideal S1x1x2048x64 .f32) : FVec Ideal S2048x1 .f32 :=
  k0_pay14 (k0_pay3 (F := Ideal) (View.ld x0 r0_0)) (k0_pay8 (F := Ideal) (View.ld x0 r0_0) (View.ld x1 r0_1) (View.ld x1 r0_2))
    (View.ld x1 r0_3) (View.ld x1 r0_4)

/-- One over the final normaliser, from the blocks. -/
abbrev ILcol (x0 x1 : Vec Ideal S1x1x2048x64 .f32) : FVec Ideal S2048x1 .f32 :=
  k0_pay15 (k0_pay3 (F := Ideal) (View.ld x0 r0_0)) (k0_pay8 (F := Ideal) (View.ld x0 r0_0) (View.ld x1 r0_1) (View.ld x1 r0_2))
    (k0_pay9 (F := Ideal) (View.ld x0 r0_0) (View.ld x1 r0_1) (View.ld x1 r0_2))
    (k0_pay10 (F := Ideal) (View.ld x0 r0_0) (View.ld x1 r0_1) (View.ld x1 r0_2)) (View.ld x1 r0_3) (View.ld x1 r0_4)

/-- A tile of weights at (p, j), whichever of the four key tiles it is computed from. -/
theorem weight_tile (x0 x1 : Vec Ideal S1x1x2048x64 .f32) (c : Fin 4) (kk : FVec Ideal S1x1x512x64 .f32)
    (hkk : ∀ (j : Fin 512) (d : Fin 64), kk (ix4 (0 : Fin 1) (0 : Fin 1) j d) = x1 (ix4 (0 : Fin 1) (0 : Fin 1) (pos c j) d))
    (p : Fin 2048) (j : Fin 512) :
    k0_pay17 (k0_pay3 (F := Ideal) (View.ld x0 r0_0)) (Mcol x0 x1) (ILcol x0 x1) kk (ix2 p j) = onlineRow (bs x0 x1 p) (pos c j) := by
  have h0 := score_tile x0 x1 p 0 (View.ld x1 r0_1) (ld_t0 x1)
  have h1 := score_tile x0 x1 p 1 (View.ld x1 r0_2) (ld_t1 x1)
  have h2 := score_tile x0 x1 p 2 (View.ld x1 r0_3) (ld_t2 x1)
  have h3 := score_tile x0 x1 p 3 (View.ld x1 r0_4) (ld_t3 x1)
  exact weight_at p (bs x0 x1 p) (k0_pay3 (F := Ideal) (View.ld x0 r0_0)) _ _ _ (View.ld x1 r0_3) (View.ld x1 r0_4) h2 h3
    (pay8_at p (bs x0 x1 p) (View.ld x0 r0_0) (View.ld x1 r0_1) (View.ld x1 r0_2) h0 h1)
    (pay9_at p (bs x0 x1 p) (View.ld x0 r0_0) (View.ld x1 r0_1) (View.ld x1 r0_2) h0 h1)
    (pay10_at p (bs x0 x1 p) (View.ld x0 r0_0) (View.ld x1 r0_1) (View.ld x1 r0_2) h0 h1)
    kk c (score_tile x0 x1 p c kk hkk) j

/-! ## The weights block -/

/-- The two leading coordinates of an index of a [1, 1, a, b] block are 0. -/
theorem unit_idx {n2 n3 : ℕ} (x : (⟨4, ![1, 1, n2, n3]⟩ : Shape).Idx) :
    x = ix4 (0 : Fin 1) (0 : Fin 1) (x 2) (x 3) := by
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => rfl
  | ⟨3, _⟩ => rfl

/-- An index of a [1, 1, 2048, 512] piece by its row and column. -/
theorem piece_idx (x : S1x1x2048x512.Idx) : ∃ (p : Fin 2048) (j : Fin 512), x = ix4 (0 : Fin 1) (0 : Fin 1) p j :=
  ⟨x 2, x 3, unit_idx x⟩

/-- The weights block: entry (p, k) is row p's entry k, normalised by the final running quantities. -/
def Wblk (x0 x1 : FVec Ideal S1x1x2048x64 .f32) : Vec Ideal S1x1x2048x2048 .f32 :=
  fun y => onlineRow (bs x0 x1 (y 2)) (y 3)

/-- The piece stored at columns 512·c … is tile c of every row's weights. -/
theorem piece_apply (x0 x1 : Vec Ideal S1x1x2048x64 .f32) (c : Fin 4) (kk : FVec Ideal S1x1x512x64 .f32)
    (hkk : ∀ (j : Fin 512) (d : Fin 64), kk (ix4 (0 : Fin 1) (0 : Fin 1) j d) = x1 (ix4 (0 : Fin 1) (0 : Fin 1) (pos c j) d))
    {off : Fin 4 → ℕ} (inb : ∀ i, off i + S1x1x2048x512.size i ≤ S1x1x2048x2048.size i)
    (e0 : off 0 = 0) (e1 : off 1 = 0) (e2 : off 2 = 0) (e3 : off 3 = c.val * 512) (x : S1x1x2048x512.Idx) :
    shapeCast S1x1x2048x512 (k0_pay17 (k0_pay3 (F := Ideal) (View.ld x0 r0_0)) (Mcol x0 x1) (ILcol x0 x1) kk)
        shapeCasts_S2048x512_S1x1x2048x512 x
      = Wblk x0 x1 ((Rect.unit (s := S1x1x2048x2048) off S1x1x2048x512.size inb).emb x) := by
  obtain ⟨p, j, rfl⟩ := piece_idx x
  refine (add_units_w _ p j).trans ?_
  rw [weight_tile x0 x1 c kk hkk p j]
  show onlineRow (bs x0 x1 p) (pos c j) = onlineRow (bs x0 x1 _) _
  congr 2
  · exact Fin.ext (by show p.val = off 2 + 1 * p.val; omega)
  · exact Fin.ext (by show c.val * 512 + j.val = off 3 + 1 * j.val; omega)

/-- THE WEIGHTS BLOCK: entry (p, k) is row p's entry k, normalised by the final running quantities. -/
theorem out4_apply (x0 x1 x2 : Vec Ideal S1x1x2048x64 .f32) (y : S1x1x2048x2048.Idx) :
    out0_4 (F := Ideal) x0 x1 x2 y = onlineRow (bs x0 x1 (y 2)) (y 3) := by
  unfold out0_4
  refine View.canon_apply_of_pieces (Wblk x0 x1) _ ?_ y (cover0_4 _ _ _ _ y)
  intro pc hpc
  rcases List.mem_cons.mp hpc with rfl | hpc
  · exact fun x => piece_apply x0 x1 3 (View.ld x1 r0_4) (ld_t3 x1) inb_S1x1x2048x2048_S1x1x2048x512_0_0_0_1536 rfl rfl rfl rfl x
  rcases List.mem_cons.mp hpc with rfl | hpc
  · exact fun x => piece_apply x0 x1 2 (View.ld x1 r0_3) (ld_t2 x1) inb_S1x1x2048x2048_S1x1x2048x512_0_0_0_1024 rfl rfl rfl rfl x
  rcases List.mem_cons.mp hpc with rfl | hpc
  · exact fun x => piece_apply x0 x1 1 (View.ld x1 r0_2) (ld_t1 x1) inb_S1x1x2048x2048_S1x1x2048x512_0_0_0_512 rfl rfl rfl rfl x
  rcases List.mem_cons.mp hpc with rfl | hpc
  · exact fun x => piece_apply x0 x1 0 (View.ld x1 r0_1) (ld_t0 x1) inb_S1x1x2048x2048_S1x1x2048x512_0_0_0_0 rfl rfl rfl rfl x
  nomatch hpc

/-! ## The context block -/

/-- An index of a [1, 1, 2048, 64] block by its row and lane. -/
theorem block_idx (y : S1x1x2048x64.Idx) : ∃ (p : Fin 2048) (d : Fin 64), y = ix4 (0 : Fin 1) (0 : Fin 1) p d :=
  ⟨y 2, y 3, unit_idx y⟩

/-! The context payloads as trees of vector operations (each by unfolding its definition). -/

section defs
variable {F : FTy → Type} [FloatOps F]

theorem pay2_def (v125 : FVec F S2048x64 .f32) (v129 : FVec F S512x64 .f32) (v137 : FVec F S2048x512 .f32) :
    k0_pay2 v125 v129 v137 = shapeCast S1x1x2048x64 (addf v125 (matmul dot_S2048x512_S512x64_S2048x64_1_0_0_1_n_n
      (some .fp32) v137 v129 (constant S2048x64 .f32 0x00000000#32))) shapeCasts_S2048x64_S1x1x2048x64 := rfl

theorem pay25_def (v1 : FVec F S2048x64 .f32) (v62 v73 : FVec F S2048x1 .f32) (v91 : FVec F S2048x64 .f32)
    (v95 : FVec F S512x64 .f32) (v103 : FVec F S2048x512 .f32) (cst_64 : FVec F S2048x64 .f32)
    (v109 v111 : Vec F S1x1x512x64 .f32) :
    k0_pay25 v1 v62 v73 v91 v95 v103 cst_64 v109 v111
      = addf (addf v91 (matmul dot_S2048x512_S512x64_S2048x64_1_0_0_1_n_n (some .fp32) v103 v95 cst_64))
          (matmul dot_S2048x512_S512x64_S2048x64_1_0_0_1_n_n (some .fp32) (k0_pay23 v1 v62 v73 v109)
            (shapeCast S512x64 v111 shapeCasts_S1x1x512x64_S512x64 : FVec F S512x64 .f32)
            (constant S2048x64 .f32 0x00000000#32)) := rfl

theorem pay19_def (v1 : FVec F S2048x64 .f32) (v62 v73 : FVec F S2048x1 .f32) (v74 : FVec F S2048x64 .f32)
    (v75 v77 : Vec F S1x1x512x64 .f32) :
    k0_pay19 v1 v62 v73 v74 v75 v77
      = addf v74 (matmul dot_S2048x512_S512x64_S2048x64_1_0_0_1_n_n (some .fp32) (k0_pay17 v1 v62 v73 v75)
          (shapeCast S512x64 v77 shapeCasts_S1x1x512x64_S512x64 : FVec F S512x64 .f32)
          (constant S2048x64 .f32 0x00000000#32)) := rfl

theorem pay20_def (v94 : Vec F S1x1x512x64 .f32) :
    k0_pay20 v94 = (shapeCast S512x64 v94 shapeCasts_S1x1x512x64_S512x64 : FVec F S512x64 .f32) := rfl

theorem pay26_def (v128 : Vec F S1x1x512x64 .f32) :
    k0_pay26 v128 = (shapeCast S512x64 v128 shapeCasts_S1x1x512x64_S512x64 : FVec F S512x64 .f32) := rfl

theorem pay16_def : k0_pay16 (F := F) = broadcast S2048x64 (Scalar.ofBits .f32 0x00000000#32) := rfl

end defs

/-- One tile's contribution to the context, in the row's terms. -/
theorem ctx_tile (x0 x1 x2 : Vec Ideal S1x1x2048x64 .f32) (c : Fin 4) (kk vv : FVec Ideal S1x1x512x64 .f32)
    (hkk : ∀ (j : Fin 512) (d : Fin 64), kk (ix4 (0 : Fin 1) (0 : Fin 1) j d) = x1 (ix4 (0 : Fin 1) (0 : Fin 1) (pos c j) d))
    (hvv : ∀ (j : Fin 512) (d : Fin 64), vv (ix4 (0 : Fin 1) (0 : Fin 1) j d) = x2 (ix4 (0 : Fin 1) (0 : Fin 1) (pos c j) d))
    (p : Fin 2048) (d : Fin 64) :
    matmul dot_S2048x512_S512x64_S2048x64_1_0_0_1_n_n (some .fp32)
        (k0_pay17 (k0_pay3 (F := Ideal) (View.ld x0 r0_0)) (Mcol x0 x1) (ILcol x0 x1) kk)
        (shapeCast S512x64 vv shapeCasts_S1x1x512x64_S512x64) (constant S2048x64 .f32 0x00000000#32) (ix2 p d)
      = ∑ j : Fin 512, (fun k => onlineRow (bs x0 x1 p) k * x2 (ix4 (0 : Fin 1) (0 : Fin 1) k d)) (pos c j) := by
  rw [ctxTile_apply]
  exact Finset.sum_congr rfl fun j _ => by rw [weight_tile x0 x1 c kk hkk p j, hvv]

/-- THE CONTEXT BLOCK: entry (p, d) is the tile-by-tile sum of weight · value. -/
theorem out3_apply (x0 x1 x2 : Vec Ideal S1x1x2048x64 .f32) (y : S1x1x2048x64.Idx) :
    out0_3 (F := Ideal) x0 x1 x2 y
      = chunkSum fun k => onlineRow (bs x0 x1 (y 2)) k * x2 (ix4 (0 : Fin 1) (0 : Fin 1) k (y 3)) := by
  obtain ⟨p, d, rfl⟩ := block_idx y
  unfold out0_3
  rw [View.canon_unit_zero hz4, pay2_def, pay25_def, pay19_def, pay20_def, pay26_def, pay16_def, pay21_eq, pay23_eq,
    pay27_eq]
  refine (add_units _ p d).trans ?_
  simp only [addf_apply, broadcast_apply]
  rw [ctx_tile x0 x1 x2 0 _ _ (ld_t0 x1) (ld_t0 x2), ctx_tile x0 x1 x2 1 _ _ (ld_t1 x1) (ld_t1 x2),
    ctx_tile x0 x1 x2 2 _ _ (ld_t2 x1) (ld_t2 x2), ctx_tile x0 x1 x2 3 _ _ (ld_t3 x1) (ld_t3 x2),
    Ideal.ofBits_def, Ideal.ofBits_zero_f32]
  rfl

end Cert.Attn.Body

end
-- ==== Proof.KernelValue.lean ====
/-
  From blocks to arrays.  The grid has one point per head; at point t every window's block is head t's
  [2048, ·] slab of its array (block index (0, t, 0, 0)).  So what point t writes back to the weights array is the
  head-t slab of the tiled-form weights of the argument arrays, and likewise for the context array; the sixteen
  slabs cover each array, so after the run each result array IS the tiled form of the arguments.
-/
import proofs.«125590_j70695161692391_2_alg».proof.Proof.Gen.KernelIdeal.Value
import proofs.«125590_j70695161692391_2_alg».proof.Proof.BodyBlock
import proofs.«125590_j70695161692391_2_alg».proof.Proof.Spec

set_option maxRecDepth 16384

noncomputable section

open scoped BigOperators

namespace Cert.Attn.Kernel

open Cert.KernelIdeal Cert.KernelIdeal.Gen Idealize.ShloMosaic Idealize.ShloMosaic.TcCoe Idealize.SL.Sem
open Idealize.ShloMosaic.ValueIdx Cert.Attn Cert.Attn.Body
open Idealize.ShloMosaic.Pipeline (Dat)

variable (m : (ℓ : Loc nD τ sig) → Buf (Elt Ideal) ℓ) (ρ : Dev nD → PrngReg)

/-- Every window's block index at point t is (0, t, 0, 0), decided over the sixteen points. -/
theorem idx_facts : ∀ t : Fin cfg0.N,
    (win0_0.index t (0 : Fin 4) = 0 ∧ win0_0.index t (1 : Fin 4) = t.val ∧ win0_0.index t (2 : Fin 4) = 0 ∧ win0_0.index t (3 : Fin 4) = 0)
    ∧ (win0_1.index t (0 : Fin 4) = 0 ∧ win0_1.index t (1 : Fin 4) = t.val ∧ win0_1.index t (2 : Fin 4) = 0 ∧ win0_1.index t (3 : Fin 4) = 0)
    ∧ (win0_2.index t (0 : Fin 4) = 0 ∧ win0_2.index t (1 : Fin 4) = t.val ∧ win0_2.index t (2 : Fin 4) = 0 ∧ win0_2.index t (3 : Fin 4) = 0)
    ∧ (win0_3.index t (0 : Fin 4) = 0 ∧ win0_3.index t (1 : Fin 4) = t.val ∧ win0_3.index t (2 : Fin 4) = 0 ∧ win0_3.index t (3 : Fin 4) = 0)
    ∧ (win0_4.index t (0 : Fin 4) = 0 ∧ win0_4.index t (1 : Fin 4) = t.val ∧ win0_4.index t (2 : Fin 4) = 0 ∧ win0_4.index t (3 : Fin 4) = 0) :=
  (by decide +kernel : ∀ t : Fin grid0.N, _)

/-- The head a grid point works on. -/
def hd (t : Fin cfg0.N) : Fin 16 := ⟨t.val, lt_of_lt_of_eq t.isLt N_0⟩

/-- The grid point of a head. -/
def pt (h : Fin 16) : Fin cfg0.N := ⟨h.val, lt_of_lt_of_eq h.isLt N_0.symm⟩

/-! ## The input blocks -/

theorem iblk0_apply (c : Dev nD) (t : Fin cfg0.N) (p : Fin 2048) (d : Fin 64) :
    iblk m c 0 t (ix4 (0 : Fin 1) (0 : Fin 1) p d) = V m c main_arg0 (ix4 (0 : Fin 1) (hd t) p d) := by
  obtain ⟨⟨e0, e1, e2, e3⟩, -⟩ := idx_facts t
  show V m c main_arg0 (((cfg0.win 0).blk t).view.emb (ix4 (0 : Fin 1) (0 : Fin 1) p d)) = _
  congr 1
  funext a; apply Fin.ext
  match a with
  | ⟨0, _⟩ => show win0_0.index t (0 : Fin 4) * 1 + 1 * 0 = 0; omega
  | ⟨1, _⟩ => show win0_0.index t (1 : Fin 4) * 1 + 1 * 0 = t.val; omega
  | ⟨2, _⟩ => show win0_0.index t (2 : Fin 4) * 2048 + 1 * p.val = p.val; omega
  | ⟨3, _⟩ => show win0_0.index t (3 : Fin 4) * 64 + 1 * d.val = d.val; omega

theorem iblk1_apply (c : Dev nD) (t : Fin cfg0.N) (p : Fin 2048) (d : Fin 64) :
    iblk m c 1 t (ix4 (0 : Fin 1) (0 : Fin 1) p d) = V m c main_arg1 (ix4 (0 : Fin 1) (hd t) p d) := by
  obtain ⟨-, ⟨e0, e1, e2, e3⟩, -⟩ := idx_facts t
  show V m c main_arg1 (((cfg0.win 1).blk t).view.emb (ix4 (0 : Fin 1) (0 : Fin 1) p d)) = _
  congr 1
  funext a; apply Fin.ext
  match a with
  | ⟨0, _⟩ => show win0_1.index t (0 : Fin 4) * 1 + 1 * 0 = 0; omega
  | ⟨1, _⟩ => show win0_1.index t (1 : Fin 4) * 1 + 1 * 0 = t.val; omega
  | ⟨2, _⟩ => show win0_1.index t (2 : Fin 4) * 2048 + 1 * p.val = p.val; omega
  | ⟨3, _⟩ => show win0_1.index t (3 : Fin 4) * 64 + 1 * d.val = d.val; omega

theorem iblk2_apply (c : Dev nD) (t : Fin cfg0.N) (p : Fin 2048) (d : Fin 64) :
    iblk m c 2 t (ix4 (0 : Fin 1) (0 : Fin 1) p d) = V m c main_arg2 (ix4 (0 : Fin 1) (hd t) p d) := by
  obtain ⟨-, -, ⟨e0, e1, e2, e3⟩, -⟩ := idx_facts t
  show V m c main_arg2 (((cfg0.win 2).blk t).view.emb (ix4 (0 : Fin 1) (0 : Fin 1) p d)) = _
  congr 1
  funext a; apply Fin.ext
  match a with
  | ⟨0, _⟩ => show win0_2.index t (0 : Fin 4) * 1 + 1 * 0 = 0; omega
  | ⟨1, _⟩ => show win0_2.index t (1 : Fin 4) * 1 + 1 * 0 = t.val; omega
  | ⟨2, _⟩ => show win0_2.index t (2 : Fin 4) * 2048 + 1 * p.val = p.val; omega
  | ⟨3, _⟩ => show win0_2.index t (3 : Fin 4) * 64 + 1 * d.val = d.val; omega

/-- Row p's scores from head t's blocks are row p's tiled-form scores in head t. -/
theorem bs_eq (c : Dev nD) (t : Fin cfg0.N) (p : Fin 2048) :
    bs (iblk m c 0 t) (iblk m c 1 t) p = scoreK (V m c main_arg0) (V m c main_arg1) (hd t) p := by
  funext k
  unfold bs scoreK qk
  congr 1
  exact Finset.sum_congr rfl fun d _ => by rw [iblk0_apply, iblk1_apply]

/-! ## What each point writes back -/

/-- Point t writes head t's slab of the tiled-form weights. -/
theorem flushed_attn (c : Dev nD) (t : Fin cfg0.N) :
    (dats m 0 c).flushed 4 t
      = ((cfg0.win 4).blk t).view.read (Elt Ideal) (GattnK (V m c main_arg0) (V m c main_arg1)) := by
  rw [Cert.KernelIdeal.Value.flushed4]
  obtain ⟨-, -, -, -, ⟨e0, e1, e2, e3⟩⟩ := idx_facts t
  funext y
  have hy1 : (y 1).val < 1 := (y 1).isLt
  have h1 : (((cfg0.win 4).blk t).view.emb y) 1 = hd t :=
    Fin.ext (by show win0_4.index t (1 : Fin 4) * 1 + 1 * (y 1).val = t.val; omega)
  have h2 : (((cfg0.win 4).blk t).view.emb y) 2 = y 2 :=
    Fin.ext (by show win0_4.index t (2 : Fin 4) * 2048 + 1 * (y 2).val = (y 2).val; omega)
  have h3 : (((cfg0.win 4).blk t).view.emb y) 3 = y 3 :=
    Fin.ext (by show win0_4.index t (3 : Fin 4) * 2048 + 1 * (y 3).val = (y 3).val; omega)
  show out0_4 (iblk m c 0 t) (iblk m c 1 t) (iblk m c 2 t) y
    = attnK (V m c main_arg0) (V m c main_arg1) ((((cfg0.win 4).blk t).view.emb y) 1)
        ((((cfg0.win 4).blk t).view.emb y) 2) ((((cfg0.win 4).blk t).view.emb y) 3)
  refine (out4_apply (iblk m c 0 t) (iblk m c 1 t) (iblk m c 2 t) y).trans ?_
  refine (congrArg (fun S : Fin 2048 → EReal => onlineRow S (y 3)) (bs_eq m c t (y 2))).trans ?_
  exact (congr (congr (congrArg (attnK (V m c main_arg0) (V m c main_arg1)) h1) h2) h3).symm

/-- Point t writes head t's slab of the tiled-form context. -/
theorem flushed_ctx (c : Dev nD) (t : Fin cfg0.N) :
    (dats m 0 c).flushed 3 t
      = ((cfg0.win 3).blk t).view.read (Elt Ideal) (GctxK (V m c main_arg0) (V m c main_arg1) (V m c main_arg2)) := by
  rw [Cert.KernelIdeal.Value.flushed3]
  obtain ⟨-, -, -, ⟨e0, e1, e2, e3⟩, -⟩ := idx_facts t
  funext y
  have hy1 : (y 1).val < 1 := (y 1).isLt
  have h1 : (((cfg0.win 3).blk t).view.emb y) 1 = hd t :=
    Fin.ext (by show win0_3.index t (1 : Fin 4) * 1 + 1 * (y 1).val = t.val; omega)
  have h2 : (((cfg0.win 3).blk t).view.emb y) 2 = y 2 :=
    Fin.ext (by show win0_3.index t (2 : Fin 4) * 2048 + 1 * (y 2).val = (y 2).val; omega)
  have h3 : (((cfg0.win 3).blk t).view.emb y) 3 = y 3 :=
    Fin.ext (by show win0_3.index t (3 : Fin 4) * 64 + 1 * (y 3).val = (y 3).val; omega)
  show out0_3 (iblk m c 0 t) (iblk m c 1 t) (iblk m c 2 t) y
    = ctxK (V m c main_arg0) (V m c main_arg1) (V m c main_arg2) ((((cfg0.win 3).blk t).view.emb y) 1)
        ((((cfg0.win 3).blk t).view.emb y) 2) ((((cfg0.win 3).blk t).view.emb y) 3)
  refine (out3_apply (iblk m c 0 t) (iblk m c 1 t) (iblk m c 2 t) y).trans ?_
  refine Eq.trans ?_ (congr (congr (congrArg (ctxK (V m c main_arg0) (V m c main_arg1) (V m c main_arg2)) h1) h2) h3).symm
  show _ = chunkSum fun k => onlineRow (scoreK (V m c main_arg0) (V m c main_arg1) (hd t) (y 2)) k
    * V m c main_arg2 (ix4 (0 : Fin 1) (hd t) k (y 3))
  refine congrArg chunkSum (funext fun k => ?_)
  exact congr (congrArg (fun (S : Fin 2048 → EReal) (v : EReal) => onlineRow S k * v) (bs_eq m c t (y 2)))
    (iblk2_apply m c t k (y 3))

/-! ## The sixteen slabs cover each array -/

theorem mem_blk4 (t : Fin cfg0.N) (i : S1x16x2048x2048.Idx) :
    i ∈ ((cfg0.win 4).blk t).view.set ↔ ∀ a : Fin 4, win0_4.index t a * S1x1x2048x2048.size a ≤ (i a).val
      ∧ (i a).val < win0_4.index t a * S1x1x2048x2048.size a + S1x1x2048x2048.size a := by
  show i ∈ ((View.whole main_v0_1).slice (win0_4.rect t)).set ↔ _
  rw [View.set_slice_whole, Rect.mem_set_unit]
  exact Iff.rfl

theorem mem_blk3 (t : Fin cfg0.N) (i : S1x16x2048x64.Idx) :
    i ∈ ((cfg0.win 3).blk t).view.set ↔ ∀ a : Fin 4, win0_3.index t a * S1x1x2048x64.size a ≤ (i a).val
      ∧ (i a).val < win0_3.index t a * S1x1x2048x64.size a + S1x1x2048x64.size a := by
  show i ∈ ((View.whole main_v0_0).slice (win0_3.rect t)).set ↔ _
  rw [View.set_slice_whole, Rect.mem_set_unit]
  exact Iff.rfl

theorem cover4 (i : S1x16x2048x2048.Idx) :
    ∃ t : Fin cfg0.N, (cfg0.win 4).flush t = true ∧ i ∈ ((cfg0.win 4).blk t).view.set := by
  have hi0 : (i 0).val < 1 := (i 0).isLt
  have hi1 : (i 1).val < 16 := (i 1).isLt
  have hi2 : (i 2).val < 2048 := (i 2).isLt
  have hi3 : (i 3).val < 2048 := (i 3).isLt
  obtain ⟨-, -, -, -, ⟨e0, e1, e2, e3⟩⟩ := idx_facts (pt ⟨(i 1).val, hi1⟩)
  have e1' : win0_4.index (pt ⟨(i 1).val, hi1⟩) (1 : Fin 4) = (i 1).val := e1
  refine ⟨pt ⟨(i 1).val, hi1⟩, flush0_4 _, ?_⟩
  rw [mem_blk4]
  intro a
  match a with
  | ⟨0, _⟩ => show win0_4.index (pt ⟨(i 1).val, hi1⟩) (0 : Fin 4) * 1 ≤ (i 0).val ∧ (i 0).val < win0_4.index (pt ⟨(i 1).val, hi1⟩) (0 : Fin 4) * 1 + 1; omega
  | ⟨1, _⟩ => show win0_4.index (pt ⟨(i 1).val, hi1⟩) (1 : Fin 4) * 1 ≤ (i 1).val ∧ (i 1).val < win0_4.index (pt ⟨(i 1).val, hi1⟩) (1 : Fin 4) * 1 + 1; omega
  | ⟨2, _⟩ => show win0_4.index (pt ⟨(i 1).val, hi1⟩) (2 : Fin 4) * 2048 ≤ (i 2).val ∧ (i 2).val < win0_4.index (pt ⟨(i 1).val, hi1⟩) (2 : Fin 4) * 2048 + 2048; omega
  | ⟨3, _⟩ => show win0_4.index (pt ⟨(i 1).val, hi1⟩) (3 : Fin 4) * 2048 ≤ (i 3).val ∧ (i 3).val < win0_4.index (pt ⟨(i 1).val, hi1⟩) (3 : Fin 4) * 2048 + 2048; omega

theorem cover3 (i : S1x16x2048x64.Idx) :
    ∃ t : Fin cfg0.N, (cfg0.win 3).flush t = true ∧ i ∈ ((cfg0.win 3).blk t).view.set := by
  have hi0 : (i 0).val < 1 := (i 0).isLt
  have hi1 : (i 1).val < 16 := (i 1).isLt
  have hi2 : (i 2).val < 2048 := (i 2).isLt
  have hi3 : (i 3).val < 64 := (i 3).isLt
  obtain ⟨-, -, -, ⟨e0, e1, e2, e3⟩, -⟩ := idx_facts (pt ⟨(i 1).val, hi1⟩)
  have e1' : win0_3.index (pt ⟨(i 1).val, hi1⟩) (1 : Fin 4) = (i 1).val := e1
  refine ⟨pt ⟨(i 1).val, hi1⟩, flush0_3 _, ?_⟩
  rw [mem_blk3]
  intro a
  match a with
  | ⟨0, _⟩ => show win0_3.index (pt ⟨(i 1).val, hi1⟩) (0 : Fin 4) * 1 ≤ (i 0).val ∧ (i 0).val < win0_3.index (pt ⟨(i 1).val, hi1⟩) (0 : Fin 4) * 1 + 1; omega
  | ⟨1, _⟩ => show win0_3.index (pt ⟨(i 1).val, hi1⟩) (1 : Fin 4) * 1 ≤ (i 1).val ∧ (i 1).val < win0_3.index (pt ⟨(i 1).val, hi1⟩) (1 : Fin 4) * 1 + 1; omega
  | ⟨2, _⟩ => show win0_3.index (pt ⟨(i 1).val, hi1⟩) (2 : Fin 4) * 2048 ≤ (i 2).val ∧ (i 2).val < win0_3.index (pt ⟨(i 1).val, hi1⟩) (2 : Fin 4) * 2048 + 2048; omega
  | ⟨3, _⟩ => show win0_3.index (pt ⟨(i 1).val, hi1⟩) (3 : Fin 4) * 64 ≤ (i 3).val ∧ (i 3).val < win0_3.index (pt ⟨(i 1).val, hi1⟩) (3 : Fin 4) * 64 + 64; omega

/-! ## The result arrays, and the run -/

theorem final_attn (c : Dev nD) :
    (dats m 0 c).arrAt 4 cfg0.N = GattnK (V m c main_arg0) (V m c main_arg1) :=
  (dats m 0 c).arrAt_eq_of_cover 4 (GattnK (V m c main_arg0) (V m c main_arg1)) (fun t _ => flushed_attn m c t) cover4

theorem final_ctx (c : Dev nD) :
    (dats m 0 c).arrAt 3 cfg0.N = GctxK (V m c main_arg0) (V m c main_arg1) (V m c main_arg2) :=
  (dats m 0 c).arrAt_eq_of_cover 3 (GctxK (V m c main_arg0) (V m c main_arg1) (V m c main_arg2))
    (fun t _ => flushed_ctx m c t) cover3

/-- Every weakly fair execution of the idealized kernel terminates with the two result arrays at the tiled form of
    the argument arrays, the arguments unchanged. -/
theorem run : θ_run defs (onTc (τ := τ) (main (F := Ideal))) ⟨m, fun _ => 0, ρ⟩ fun r => ∀ c : Dev nD,
      r.2.mem ((c : Thread nD τ).loc main_v0_0)
        = GctxK (m ((c : Thread nD τ).loc main_arg0)) (m ((c : Thread nD τ).loc main_arg1)) (m ((c : Thread nD τ).loc main_arg2))
      ∧ r.2.mem ((c : Thread nD τ).loc main_v0_1)
        = GattnK (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_ctx m c), (h c).2.1.trans (final_attn m c), (h c).2.2⟩)
    (Cert.KernelIdeal.Value.run_blocks m ρ)

end Cert.Attn.Kernel

end
-- ==== Proof.RefValue.lean ====
/-
  The reference program is the one-pass form of the specification.

  The reference computes, for head h and query row p: the dot products of row p of Q with every key row, each
  divided by 8 (the scores); the row's maximum, as a fold of max from -∞ over the 2048 key positions, then once more
  max(-∞, ·), which changes nothing; the exponentials of the scores shifted by that maximum; their sum over the
  row, starting from 0; the quotient of each exponential by that sum (the attention weights); and the sum over
  key positions of weight times the value row's entry (the context). Read stage by stage at the index (0, h, p, k),
  this is entry by entry the specification's softmaxRow of scoreR, and ctxR.
-/
import proofs.«125590_j70695161692391_2_alg».proof.Proof.Gen.ReferenceIdeal.Read
import proofs.«125590_j70695161692391_2_alg».proof.Proof.Spec

noncomputable section

open scoped BigOperators

namespace Cert.Attn.Ref

open Idealize.ShloMosaic Idealize.ShloMosaic.ValueIdx Cert.LogShift
open Cert.ReferenceIdeal Cert.ReferenceIdeal.Gen Cert.ReferenceIdeal.Read

/-- An argument array: extended reals indexed by (0, head, position, lane). -/
abbrev Arg : Type := (⟨S1x16x2048x64, .f32⟩ : BufTy).Contents (Elt Ideal)

/-- The score stage at (0, h, p, k): the dot product of query row p and key row k, divided by 8. -/
theorem score_at (x0 x1 : Arg) (h : Fin 16) (p k : Fin 2048) :
    val_main_v2 (F := Ideal) x0 x1 (ix4 (0 : Fin 1) h p k) = scoreR x0 x1 h p k := by
  rw [val_main_v2_apply, val_main_v0_apply, val_main_v1_apply, val_main_cst_apply]
  simp only [Ideal.hostDivf_def, Ideal.ofBits_def]
  unfold scoreR qk
  refine congrArg (fun s => Ideal.div s _) (Finset.sum_congr rfl fun d _ => ?_)
  have el : lidx_main_v0 (ix4 (0 : Fin 1) h p k) d = ix4 (0 : Fin 1) h p d := funext fun c => Fin.ext (by
    match c with
    | ⟨0, _⟩ => rfl
    | ⟨1, _⟩ => rfl
    | ⟨2, _⟩ => rfl
    | ⟨3, _⟩ => rfl)
  have er : ridx_main_v0 (ix4 (0 : Fin 1) h p k) d = ix4 (0 : Fin 1) h k d := funext fun c => Fin.ext (by
    match c with
    | ⟨0, _⟩ => rfl
    | ⟨1, _⟩ => rfl
    | ⟨2, _⟩ => rfl
    | ⟨3, _⟩ => rfl)
  rw [el, er]

/-- Dropping the last axis of the score array leaves a rank-3 shape. -/
theorem reduces_last : S1x16x2048x2048.Reduces [3] S1x16x2048 :=
  let ⟨e, hb⟩ := reducesTo_S1x16x2048x2048_S1x16x2048_d3; ⟨e, by decide, hb⟩

/-- The maximum-reduction across key positions, at (0, h, p): the maximum of row p's scores. -/
theorem rowmax_at (x0 x1 : Arg) (h : Fin 16) (p : Fin 2048) :
    val_main_v3 (F := Ideal) x0 x1 (ix3 (0 : Fin 1) h p) = cmax (scoreR x0 x1 h p) := by
  unfold val_main_v3
  rw [Host.reduce_eq_fold_single FloatOps.maximumf _ _ reducesTo_S1x16x2048x2048_S1x16x2048_d3 reduces_last h_S_]
  refine fold_eq_cmax (N := 2048) _ _ _ ?_ fun k => ?_
  · rw [val_main_cst_0_apply]; exact neg_inf
  · show val_main_v2 (F := Ideal) x0 x1 (reduces_last.lift (ix3 (0 : Fin 1) h p) k) = _
    rw [← score_at]
    exact congrArg _ (funext fun c => Fin.ext (by
      match c with
      | ⟨0, _⟩ => rfl
      | ⟨1, _⟩ => rfl
      | ⟨2, _⟩ => rfl
      | ⟨3, _⟩ => rfl))

/-- Taking the maximum with -∞ once more leaves the row maximum. -/
theorem shift_at (x0 x1 : Arg) (h : Fin 16) (p : Fin 2048) :
    val_main_v5 (F := Ideal) x0 x1 (ix3 (0 : Fin 1) h p) = cmax (scoreR x0 x1 h p) := by
  rw [val_main_v5_apply, val_main_v4_apply, val_main_cst_1_apply, rowmax_at]
  simp only [Ideal.maximumf_def, Ideal.ofBits_def]
  rw [neg_inf]
  exact max_eq_right bot_le

/-- The exponential stage at (0, h, p, k): exp of the score shifted by its row's maximum. -/
theorem exp_at (x0 x1 : Arg) (h : Fin 16) (p k : Fin 2048) :
    val_main_v9 (F := Ideal) x0 x1 (ix4 (0 : Fin 1) h p k)
      = Ideal.exp (scoreR x0 x1 h p k - cmax (scoreR x0 x1 h p)) := by
  rw [val_main_v9_apply, val_main_v8_apply, val_main_v7_apply, val_main_v6_apply, score_at]
  have e : idx_main_v6 (idx_main_v7 (ix4 (0 : Fin 1) h p k)) = ix3 (0 : Fin 1) h p := funext fun c => Fin.ext (by
    match c with
    | ⟨0, _⟩ => rfl
    | ⟨1, _⟩ => rfl
    | ⟨2, _⟩ => rfl)
  rw [e, shift_at]
  simp only [Ideal.hostUnary_exp_def, Ideal.subf_def]

/-- The sum across key positions, at (0, h, p): the row's normaliser (the initial 0 adds nothing). -/
theorem sum_at (x0 x1 : Arg) (h : Fin 16) (p : Fin 2048) :
    val_main_v10 (F := Ideal) x0 x1 (ix3 (0 : Fin 1) h p)
      = ∑ k : Fin 2048, Ideal.exp (scoreR x0 x1 h p k - cmax (scoreR x0 x1 h p)) := by
  rw [val_main_v10_apply, val_main_cst_2_apply]
  simp only [Ideal.ofBits_def]
  rw [Ideal.ofBits_zero_f32, zero_add]
  refine Finset.sum_congr rfl fun k _ => ?_
  rw [← exp_at]
  exact congrArg _ (funext fun c => Fin.ext (by
    match c with
    | ⟨0, _⟩ => rfl
    | ⟨1, _⟩ => rfl
    | ⟨2, _⟩ => rfl
    | ⟨3, _⟩ => rfl))

/-- The attention weight at (0, h, p, k): the shifted exponential over the row's normaliser. -/
theorem attn_at (x0 x1 : Arg) (h : Fin 16) (p k : Fin 2048) :
    val_main_v13 (F := Ideal) x0 x1 (ix4 (0 : Fin 1) h p k) = attnR x0 x1 h p k := by
  rw [val_main_v13_apply, val_main_v12_apply, val_main_v11_apply, exp_at]
  have e : idx_main_v11 (idx_main_v12 (ix4 (0 : Fin 1) h p k)) = ix3 (0 : Fin 1) h p := funext fun c => Fin.ext (by
    match c with
    | ⟨0, _⟩ => rfl
    | ⟨1, _⟩ => rfl
    | ⟨2, _⟩ => rfl)
  rw [e, sum_at]
  simp only [Ideal.hostDivf_def]
  rfl

/-- The context entry at (0, h, p, d): the weights of row p against column d of V. -/
theorem ctx_at (x0 x1 x2 : Arg) (h : Fin 16) (p : Fin 2048) (d : Fin 64) :
    val_main_v14 (F := Ideal) x0 x1 x2 (ix4 (0 : Fin 1) h p d) = ctxR x0 x1 x2 h p d := by
  rw [val_main_v14_apply]
  unfold ctxR
  refine Finset.sum_congr rfl fun k _ => ?_
  have el : lidx_main_v14 (ix4 (0 : Fin 1) h p d) k = ix4 (0 : Fin 1) h p k := funext fun c => Fin.ext (by
    match c with
    | ⟨0, _⟩ => rfl
    | ⟨1, _⟩ => rfl
    | ⟨2, _⟩ => rfl
    | ⟨3, _⟩ => rfl)
  have er : ridx_main_v14 (ix4 (0 : Fin 1) h p d) k = ix4 (0 : Fin 1) h k d := funext fun c => Fin.ext (by
    match c with
    | ⟨0, _⟩ => rfl
    | ⟨1, _⟩ => rfl
    | ⟨2, _⟩ => rfl
    | ⟨3, _⟩ => rfl)
  rw [el, er, attn_at]

/-- Every index of a four-axis array whose first axis has extent 1 is (0, h, p, k). -/
theorem split_idx {n1 n2 n3 : Nat} (i : (⟨4, ![1, n1, n2, n3]⟩ : Shape).Idx) :
    i = ix4 (0 : Fin 1) (i 1) (i 2) (i 3) :=
  (eq_ix4 i).trans (congrArg (fun a : Fin 1 => ix4 a (i 1) (i 2) (i 3)) (Subsingleton.elim (α := Fin 1) (i 0) 0))

/-- THE ATTENTION WEIGHTS of the reference are the one-pass form's. -/
theorem attn_ref (x0 x1 : Arg) : val_main_v13 (F := Ideal) x0 x1 = GattnR x0 x1 := by
  funext i
  obtain ⟨h, p, k, rfl⟩ : ∃ (h : Fin 16) (p k : Fin 2048), i = ix4 (0 : Fin 1) h p k :=
    ⟨i 1, i 2, i 3, split_idx i⟩
  exact attn_at x0 x1 h p k

/-- THE CONTEXT of the reference is the one-pass form's. -/
theorem ctx_ref (x0 x1 x2 : Arg) : val_main_v14 (F := Ideal) x0 x1 x2 = GctxR x0 x1 x2 := by
  funext i
  obtain ⟨h, p, d, rfl⟩ : ∃ (h : Fin 16) (p : Fin 2048) (d : Fin 64), i = ix4 (0 : Fin 1) h p d :=
    ⟨i 1, i 2, i 3, split_idx i⟩
  exact ctx_at x0 x1 x2 h p d

end Cert.Attn.Ref

end
-- ==== Proof.LibFiniteAll.lean ====
/-
  A printed "every entry is finite" test, read back on the extended reals.

  The test `all(|x| < +inf)` prints as: the absolute value of every entry, compared (ordered, less-than) with the
  broadcast of the single-precision word of plus infinity, and the resulting array of truth values reduced by `and`
  into a result that has one index. On the extended reals the absolute value is `max x (-x)` and the word
  0x7F800000 (sign 0, exponent field all ones, mantissa 0) denotes plus infinity. So an entry passes the comparison
  exactly when it is neither plus nor minus infinity, that is, when it is a real number; and a reduction by `and`
  that came out 1 met a 1 at every entry.
-/
import Idealize.ShloMosaic.PureOps.Ideal
import Idealize.ShloMosaic.Lib.ReduceAll

namespace Cert.FiniteAll

open Idealize.ShloMosaic

/-- The single-precision word with sign 0, exponent field all ones and mantissa 0 denotes plus infinity. -/
theorem ofBits_inf_f32 : Ideal.ofBits .f32 0x7F800000#32 = (⊤ : EReal) := by
  simp [Ideal.ofBits, Ideal.ieee]

/-- An extended real whose absolute value `max x (-x)` lies below plus infinity is a real number: plus infinity
    is its own absolute value, and the negative of minus infinity is plus infinity. -/
theorem exists_real_of_abs_lt_top {x : EReal} (h : max x (-x) < ⊤) : ∃ r : ℝ, x = (r : EReal) := by
  induction x using EReal.rec with
  | bot => simp at h
  | coe r => exact ⟨r, rfl⟩
  | top => simp at h

/-- One entry: if the ordered comparison `|x| < +inf` answers 1, then `x` is a real number. -/
theorem exists_real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  by_cases hlt : max (x : EReal) (-(x : EReal)) < ⊤
  · exact exists_real_of_abs_lt_top hlt
  · simp [hlt] at h'

/-- THE ARRAY FACT: if `|x| < +inf`, taken entry by entry against the broadcast word of plus infinity and reduced
    by `and` into a result with one index, is 1, then every entry of `x` is a real number. The shape of `x`, the
    reduced axes, the shape the constant is broadcast from and the reduction's starting value are arbitrary. -/
theorem all_real_of_reduce_and {s t u z : Shape} {axes : List (Fin s.rank)} [Subsingleton t.Idx]
    (x : FVec Ideal s .f32) (dims : Fin z.rank → Fin s.rank) (hb : z.BroadcastsInDim s dims)
    (init : u.Idx → BitVec 1) (hr : s.ReducesTo axes t) (hu : 0 < u.numel) (j : t.Idx)
    (e : Host.reduce IntOp.andi
          (cmpf .olt (Host.absf x) (broadcastInDim s dims hb (constant (F := Ideal) z .f32 0x7F800000#32)))
          init hr hu j = 1#1)
    (i : s.Idx) : ∃ r : ℝ, (x i : EReal) = (r : EReal) :=
  exists_real_of_cmp (x i) (Host.reduce_andi_all _ init hr hu j e i)

end Cert.FiniteAll
-- ==== Proof.Finite.lean ====
/-
  From the precondition to real entries.

  The precondition tests each of the three argument arrays with all(|x| < +∞) and joins the three answers by
  `and`. If the joined answer is 1, each of the three answers is 1, and an array that passes the test has a real
  number at every index (neither +∞ nor -∞).
-/
import proofs.«125590_j70695161692391_2_alg».proof.Defs
import proofs.«125590_j70695161692391_2_alg».proof.Proof.LibFiniteAll
import Idealize.ShloMosaic.Lib.ReduceAll
import Idealize.ShloMosaic.Lib.ValueIdx
import Idealize.ShloMosaic.Lib.Affine

namespace Cert.Attn.Finite

open Idealize.ShloMosaic Idealize.SL.Sem

variable [Cert.Pre_finite_inputs.Facts]

/-- The joined answer has exactly one index. -/
instance : Subsingleton Cert.Pre_finite_inputs.S_.Idx := ⟨fun _ _ => funext fun d => d.elim0⟩

/-- If the test of three arrays answers 1, every entry of each array is a real number. -/
theorem real_of_fn (x0 x1 x2 : FVec Ideal Cert.Pre_finite_inputs.S1x16x2048x64 .f32)
    (h : Cert.Pre_finite_inputs.fn (F := Ideal) x0 x1 x2 = (fun _ => 1#1)) :
    (∀ i, ∃ r : ℝ, (x0 i : EReal) = (r : EReal)) ∧ (∀ i, ∃ r : ℝ, (x1 i : EReal) = (r : EReal))
      ∧ (∀ i, ∃ r : ℝ, (x2 i : EReal) = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun i => Cert.FiniteAll.all_real_of_reduce_and x0 _ _ _ _ _ _ h0' i,
    fun i => Cert.FiniteAll.all_real_of_reduce_and x1 _ _ _ _ _ _ h1 i,
    fun i => Cert.FiniteAll.all_real_of_reduce_and x2 _ _ _ _ _ _ h2 i⟩

/-- Under the kernel's precondition, on every device, every entry of Q, of K and of V is a real number. -/
theorem real_args (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal)) :=
  real_of_fn _ _ _ (h c)

end Cert.Attn.Finite
-- ==== Proof.Law.lean ====
/-
  The tiled form of scaled dot-product attention is the one-pass form whenever Q and K are real.

  Four facts, each a few lines.
  * The scalings agree for every extended real x:  x · (1/8) = x / 8,  because 8 is a nonzero real and dividing by
    a nonzero real is multiplying by its reciprocal, at the infinities too.
  * With Q and K real, each dot product qk is a finite sum of products of reals, so a row of scores is the image of
    a real row σ.
  * For a real row σ, after the fourth tile of 512 the running maximum is μ = max σ and the running normaliser is
    the positive real Σ_n exp (σ n - μ); so  exp (σ k - μ) · (1 / l) = exp (σ k - μ) / l,  both being the product
    with the reciprocal of l.
  * A sum taken as ((((0 + tile 0) + tile 1) + tile 2) + tile 3) over four consecutive tiles of 512 is the sum over
    all 2048 positions, for any summands: only associativity and 0 + a = a are used, so V may be arbitrary.
-/
import proofs.«125590_j70695161692391_2_alg».proof.Proof.Spec
import proofs.«125590_j70695161692391_2_alg».proof.Proof.LibBlockSum

noncomputable section

open scoped BigOperators

namespace Cert.Attn

open Idealize.ShloMosaic Idealize.ShloMosaic.ValueIdx Cert.LogShift Cert.OnlineSoftmax

/-! ## The three single-precision words -/

/-- Sign 0, exponent field 124, mantissa 0: 2^(124 - 127) = 1/8. -/
theorem ofBits_eighth : Ideal.ofBits .f32 0x3E000000#32 = (((1 / 8 : ℝ) : ℝ) : EReal) := by
  simp [Ideal.ofBits, Ideal.ieee, -EReal.coe_mul]; norm_num

/-- Sign 0, exponent field 130, mantissa 0: 2^(130 - 127) = 8. -/
theorem ofBits_eight : Ideal.ofBits .f32 0x41000000#32 = ((8 : ℝ) : EReal) := by
  simp [Ideal.ofBits, Ideal.ieee, -EReal.coe_mul]; norm_num

/-- Sign 0, exponent field 127, mantissa 0: 2^0 = 1. -/
theorem ofBits_one : Ideal.ofBits .f32 0x3F800000#32 = (1 : EReal) := by
  simp [Ideal.ofBits, Ideal.ieee, -EReal.coe_mul]; norm_num

/-! ## The two scalings agree -/

/-- Multiplying by 1/8 is dividing by 8, for every extended real. -/
theorem scoreK_eq_scoreR (Q K : SQ.Idx → EReal) (h : Fin 16) (p : Fin 2048) :
    scoreK Q K h p = scoreR Q K h p := by
  funext k
  unfold scoreK scoreR
  rw [ofBits_eighth, ofBits_eight, Ideal.div_coe (by norm_num : (8 : ℝ) ≠ 0)]

/-! ## The scores are real numbers -/

/-- A dot product of two real rows is a real number. -/
theorem qk_real (Q K : SQ.Idx → EReal) (hQ : ∀ i, ∃ r : ℝ, Q i = (r : EReal))
    (hK : ∀ i, ∃ r : ℝ, K i = (r : EReal)) (h : Fin 16) (p k : Fin 2048) :
    ∃ r : ℝ, qk Q K h p k = (r : EReal) := by
  choose q hq using hQ
  choose κ hκ using hK
  refine ⟨∑ d : Fin 64, q (ix4 (0 : Fin 1) h p d) * κ (ix4 (0 : Fin 1) h k d), ?_⟩
  unfold qk
  rw [← coe_sum]
  refine Finset.sum_congr rfl fun d _ => ?_
  rw [hq, hκ, EReal.coe_mul]

/-- A row of scores is the image of a real row. -/
theorem scoreR_real (Q K : SQ.Idx → EReal) (hQ : ∀ i, ∃ r : ℝ, Q i = (r : EReal))
    (hK : ∀ i, ∃ r : ℝ, K i = (r : EReal)) (h : Fin 16) (p : Fin 2048) :
    ∃ σ : Fin 2048 → ℝ, scoreR Q K h p = fun k => ((σ k : ℝ) : EReal) := by
  choose r hr using fun k => qk_real Q K hQ hK h p k
  refine ⟨fun k => r k * (1 / 8), ?_⟩
  funext k
  unfold scoreR
  rw [hr, ofBits_eight, Ideal.div_coe (by norm_num : (8 : ℝ) ≠ 0), ← EReal.coe_mul]

/-! ## The running maximum and normaliser after the fourth tile -/

/-- For a real row σ the running maximum after four tiles of 512 is μ = max σ, and the running normaliser is the
    positive real Σ_n exp (σ n - μ). -/
theorem run_real (σ : Fin 2048 → ℝ) :
    ∃ μ : ℝ, runM 512 (ext fun n => ((σ n : ℝ) : EReal)) 3 = (μ : EReal)
      ∧ cmax (fun n : Fin 2048 => ((σ n : ℝ) : EReal)) = (μ : EReal)
      ∧ runL 512 (ext fun n => ((σ n : ℝ) : EReal)) 3 = ((∑ n : Fin 2048, Real.exp (σ n - μ) : ℝ) : EReal)
      ∧ 0 < ∑ n : Fin 2048, Real.exp (σ n - μ) := by
  rw [ext_coe]
  obtain ⟨μ, hM, hub, ⟨n0, hn0, hatt⟩, hL, -⟩ := run_inv 512 (by norm_num) (rext σ) (fun _ => 0) 3
  have hN : (3 + 1) * 512 = 2048 := by norm_num
  rw [hN] at hub hn0 hL
  refine ⟨μ, hM, ?_, ?_, ?_⟩
  · -- μ bounds every score and is one of them
    apply le_antisymm
    · refine cmax_le fun n => EReal.coe_le_coe_iff.mpr ?_
      rw [← rext_apply σ n]
      exact hub n.val n.2
    · refine le_trans (le_of_eq ?_) (le_cmax (fun n : Fin 2048 => ((σ n : ℝ) : EReal)) ⟨n0, hn0⟩)
      show (μ : EReal) = ((σ ⟨n0, hn0⟩ : ℝ) : EReal)
      rw [← hatt, ← rext_apply σ ⟨n0, hn0⟩]
  · -- the sum over the first 2048 natural numbers is the sum over the 2048 positions
    have hs : ∑ n : Fin 2048, Real.exp (rext σ n.val - μ) = ∑ n : Fin 2048, Real.exp (σ n - μ) :=
      Finset.sum_congr rfl fun n _ => by rw [rext_apply]
    rw [hL, ← Fin.sum_univ_eq_sum_range (fun n => Real.exp (rext σ n - μ)), hs]
  · exact Finset.sum_pos (fun _ _ => Real.exp_pos _) ⟨⟨n0, hn0⟩, Finset.mem_univ _⟩

/-- On a real row the tiled normalisation is the one-pass softmax: multiplying by 1 / l and dividing by l are both
    the product with the reciprocal of the positive real l. -/
theorem onlineRow_coe (σ : Fin 2048 → ℝ) (k : Fin 2048) :
    onlineRow (fun n => ((σ n : ℝ) : EReal)) k = softmaxRow (fun n => ((σ n : ℝ) : EReal)) k := by
  obtain ⟨μ, hM, hcm, hL, hpos⟩ := run_real σ
  unfold onlineRow softmaxRow
  rw [hM, hL, hcm, ofBits_one]
  simp only [exp_coe_sub]
  rw [coe_sum, Ideal.div_coe (ne_of_gt hpos), Ideal.div_coe (ne_of_gt hpos), one_mul]

/-! ## Four tiles of 512 -/

/-- The tile-by-tile sum into a zero accumulator is the sum over all 2048 positions. -/
theorem chunkSum_eq (f : Fin 2048 → EReal) : chunkSum f = ∑ k : Fin 2048, f k := by
  have hb : ∑ s ∈ Finset.range 4, ∑ r : Fin 512, ext f (s * 512 + r.val) = ∑ n : Fin 2048, ext f n.val :=
    Cert.BlockSum.sum_blocks 4 512 (ext f)
  have hr : ∑ n : Fin 2048, ext f n.val = ∑ n : Fin 2048, f n :=
    Finset.sum_congr rfl fun n _ => ext_apply f n.val n.2
  have ht : ∀ c : Fin 4, ∑ j : Fin 512, f (pos c j) = ∑ r : Fin 512, ext f (c.val * 512 + r.val) :=
    fun c => Finset.sum_congr rfl fun j _ => (ext_apply f _ (pos c j).2).symm
  unfold chunkSum
  rw [ht 0, ht 1, ht 2, ht 3, ← hr, ← hb, Finset.sum_range_succ, Finset.sum_range_succ, Finset.sum_range_succ,
    Finset.sum_range_succ, Finset.sum_range_zero]
  rfl

/-! ## The two results -/

theorem attnK_eq_attnR (Q K : SQ.Idx → EReal) (hQ : ∀ i, ∃ r : ℝ, Q i = (r : EReal))
    (hK : ∀ i, ∃ r : ℝ, K i = (r : EReal)) (h : Fin 16) (p k : Fin 2048) :
    attnK Q K h p k = attnR Q K h p k := by
  obtain ⟨σ, hσ⟩ := scoreR_real Q K hQ hK h p
  unfold attnK attnR
  rw [scoreK_eq_scoreR, hσ]
  exact onlineRow_coe σ k

/-- V is arbitrary: regrouping a finite sum needs no finiteness. -/
theorem ctxK_eq_ctxR (Q K V : SQ.Idx → EReal) (hQ : ∀ i, ∃ r : ℝ, Q i = (r : EReal))
    (hK : ∀ i, ∃ r : ℝ, K i = (r : EReal)) (h : Fin 16) (p : Fin 2048) (d : Fin 64) :
    ctxK Q K V h p d = ctxR Q K V h p d := by
  unfold ctxK ctxR
  rw [chunkSum_eq]
  exact Finset.sum_congr rfl fun k _ => by rw [attnK_eq_attnR Q K hQ hK h p k]

theorem GattnK_eq (Q K : SQ.Idx → EReal) (hQ : ∀ i, ∃ r : ℝ, Q i = (r : EReal))
    (hK : ∀ i, ∃ r : ℝ, K i = (r : EReal)) : GattnK Q K = GattnR Q K := by
  funext i
  exact attnK_eq_attnR Q K hQ hK (i 1) (i 2) (i 3)

theorem GctxK_eq (Q K V : SQ.Idx → EReal) (hQ : ∀ i, ∃ r : ℝ, Q i = (r : EReal))
    (hK : ∀ i, ∃ r : ℝ, K i = (r : EReal)) : GctxK Q K V = GctxR Q K V := by
  funext i
  exact ctxK_eq_ctxR Q K V hQ hK (i 1) (i 2) (i 3)

end Cert.Attn

end
-- ==== Proof.lean ====
/-
  Scaled dot-product attention, sixteen heads of 2048 positions and width 64, against its one-pass definition.

  The kernel handles one head per grid point.  A first sweep over four tiles of 512 keys keeps a running maximum and
  a running normaliser of the scaled scores (q · kᵀ) · (1/8); a second sweep recomputes each tile's scores, writes the
  weights exp (score - m) · (1 / l) and adds the tile's weights · values into the context.  The reference divides
  the scores by 8, takes softmax along the key axis by the row maximum, and multiplies by the values.

  For arguments whose entries are real numbers — what the precondition says — the two are the same arrays: 1/8 is a
  dyadic rational, the running maximum after the last tile is the row maximum, the rescaled running normaliser is
  the full sum of exponentials, multiplying by the reciprocal of that positive real is dividing by it, and four
  consecutive tile sums are the sum over the row.  The kernel's run is read block by block (one head's slab per
  grid point, the slabs covering each result array); the reference's run operation by operation.
-/
import proofs.«125590_j70695161692391_2_alg».proof.Defs
import proofs.«125590_j70695161692391_2_alg».proof.Proof.Gen.Kernel
import proofs.«125590_j70695161692391_2_alg».proof.Proof.Gen.Kernel.Skeleton
import proofs.«125590_j70695161692391_2_alg».proof.Proof.Gen.Kernel.Launch
import proofs.«125590_j70695161692391_2_alg».proof.Proof.Gen.Kernel.Points
import proofs.«125590_j70695161692391_2_alg».proof.Proof.Gen.Kernel.Frame
import proofs.«125590_j70695161692391_2_alg».proof.Proof.Gen.KernelIdeal
import proofs.«125590_j70695161692391_2_alg».proof.Proof.Gen.KernelIdeal.Skeleton
import proofs.«125590_j70695161692391_2_alg».proof.Proof.Gen.KernelIdeal.Launch
import proofs.«125590_j70695161692391_2_alg».proof.Proof.Gen.KernelIdeal.Points
import proofs.«125590_j70695161692391_2_alg».proof.Proof.Gen.KernelIdeal.Frame
import proofs.«125590_j70695161692391_2_alg».proof.Proof.Gen.ReferenceIdeal
import proofs.«125590_j70695161692391_2_alg».proof.Proof.Gen.KernelIdeal.Value
import proofs.«125590_j70695161692391_2_alg».proof.Proof.Gen.ReferenceIdeal.Run
import proofs.«125590_j70695161692391_2_alg».proof.Proof.Gen.ReferenceIdeal.Read
import proofs.«125590_j70695161692391_2_alg».proof.Proof.Gen.Pre_finite_inputs
import proofs.«125590_j70695161692391_2_alg».proof.Proof.KernelValue
import proofs.«125590_j70695161692391_2_alg».proof.Proof.RefValue
import proofs.«125590_j70695161692391_2_alg».proof.Proof.Finite
import proofs.«125590_j70695161692391_2_alg».proof.Proof.Law
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel is the kernel's own text read at the exact instance: nothing was rewritten. -/
theorem preserves : Cert.preserves_Kernel_KernelIdeal := trivial

/-- Both runs end with the context at the tiled form and the weights at the tiled form of the kernel's arguments:
    the kernel's by its blocks, the reference's because on real arguments its one-pass form is the tiled form. -/
theorem algebraic : Cert.algebraic_KernelIdeal_ReferenceIdeal := by
  intro m ρ m' ρ' hpre hagree
  refine ⟨_, _, Cert.Attn.Kernel.run m ρ, ?_⟩
  refine (θ_run Cert.ReferenceIdeal.defs _ _).mono (fun _ h c => ⟨?_, ?_, (h c).2.2⟩)
    (Cert.ReferenceIdeal.Value.run (F := Ideal) m' ρ')
  · obtain ⟨hQ, hK, -⟩ := Cert.Attn.Finite.real_args m hpre c
    rw [(h c).1, Cert.ReferenceIdeal.Read.val_main_v14_eq, Cert.Attn.Ref.ctx_ref, (hagree c).1, (hagree c).2.1,
      (hagree c).2.2]
    exact (Cert.Attn.GctxK_eq _ _ _ hQ hK).symm
  · obtain ⟨hQ, hK, -⟩ := Cert.Attn.Finite.real_args m hpre c
    rw [(h c).2.1, Cert.ReferenceIdeal.Read.val_main_v13_eq, Cert.Attn.Ref.attn_ref, (hagree c).1, (hagree c).2.1]
    exact (Cert.Attn.GattnK_eq _ _ hQ hK).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
